-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg8 : FVec F S32x16 .f32) (main_arg9 : FVec F S16 .f32) (main_arg10 : FVec F S16x2 .f32) (main_arg11 : FVec F S2 .f32) (main_v33 : IVec S_ 1) : IVec S_ 1 :=
  let main_v34 : FVec F S32x16 .f32 := Host.absf main_arg8
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x2 .f32 := Host.absf main_arg10
  let main_cst_16 : FVec F S_ .f32 := constant S_ .f32 0x7F800000#32
  let main_v45 : FVec F S16x2 .f32 := broadcastInDim S16x2 ![] bcast_S_S16x2 main_cst_16
  let main_v46 : IVec S16x2 1 := cmpf .olt main_v44 main_v45
  let main_c_17 : IVec S_ 1 := constantI S_ 1 1#1
  let main_v47 : IVec S_ 1 := (fun x v => Host.reduce IntOp.andi x v reducesTo_S16x2_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg5 : FVec F S64x32 .f32) (main_arg6 : FVec F S64x32 .f32) (main_arg7 : FVec F S32 .f32) (main_arg8 : FVec F S32x16 .f32) (main_arg9 : FVec F S16 .f32) (main_arg10 : FVec F S16x2 .f32) (main_arg11 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x64 .f32) (main_arg1 : IVec S2x800000 32) (main_arg2 : FVec F S64x64 .f32) (main_arg3 : FVec F S64x64 .f32) (main_arg4 : FVec F S64 .f32) (main_arg5 : FVec F S64x32 .f32) (main_arg6 : FVec F S64x32 .f32) (main_arg7 : FVec F S32 .f32) (main_arg8 : FVec F S32x16 .f32) (main_arg9 : FVec F S16 .f32) (main_arg10 : FVec F S16x2 .f32) (main_arg11 : FVec F S2 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S50000x32 : Shape := ⟨2, ![50000, 32]⟩
abbrev S5000x64 : Shape := ⟨2, ![5000, 64]⟩
abbrev S5000x1 : Shape := ⟨2, ![5000, 1]⟩
abbrev S5000x32 : Shape := ⟨2, ![5000, 32]⟩
abbrev S1x64 : Shape := ⟨2, ![1, 64]⟩
abbrev S800000x32 : Shape := ⟨2, ![800000, 32]⟩
abbrev S50000x2 : Shape := ⟨2, ![50000, 2]⟩
abbrev S5000x2 : Shape := ⟨2, ![5000, 2]⟩
abbrev S1x32 : Shape := ⟨2, ![1, 32]⟩
abbrev S5000x16 : Shape := ⟨2, ![5000, 16]⟩
abbrev S1x16 : Shape := ⟨2, ![1, 16]⟩
abbrev S1x2 : Shape := ⟨2, ![1, 2]⟩

abbrev nBuf : Space → Nat
  | .hbm => 67
  | .vmem => 28
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S16x2, .f32⟩
  | .hbm, ⟨11, _⟩ => ⟨S2, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S50000x1, .f32⟩
  | .hbm, ⟨23, _⟩ => ⟨S_, .f32⟩
  | .hbm, ⟨24, _⟩ => ⟨S50000x1, .f32⟩
  | .hbm, ⟨25, _⟩ => ⟨S50000x1, .f32⟩
  | .hbm, ⟨26, _⟩ => ⟨S_, .f32⟩
  | .hbm, ⟨27, _⟩ => ⟨S50000x1, .f32⟩
  | .hbm, ⟨28, _⟩ => ⟨S50000x1, .f32⟩
  | .hbm, ⟨29, _⟩ => ⟨S50000x64, .bf16⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x64, .bf16⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S64x64, .bf16⟩
  | .hbm, ⟨45, _⟩ => ⟨S64x64, .bf16⟩
  | .hbm, ⟨46, _⟩ => ⟨S64x32, .bf16⟩
  | .hbm, ⟨47, _⟩ => ⟨S50000x64, .f32⟩
  | .hbm, ⟨48, _⟩ => ⟨S50000x32, .bf16⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x32, .bf16⟩
  | .hbm, ⟨58, _⟩ => ⟨S800000x32, .f32⟩
  | .hbm, ⟨59, _⟩ => ⟨S_, .f32⟩
  | .hbm, ⟨60, _⟩ => ⟨S50000x32, .f32⟩
  | .hbm, ⟨61, _⟩ => ⟨S800000x1, .i32⟩
  | .hbm, ⟨62, _⟩ => ⟨S50000x32, .f32⟩
  | .hbm, ⟨63, _⟩ => ⟨S64x32, .bf16⟩
  | .hbm, ⟨64, _⟩ => ⟨S32x16, .bf16⟩
  | .hbm, ⟨65, _⟩ => ⟨S16x2, .bf16⟩
  | .hbm, ⟨66, _⟩ => ⟨S50000x2, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .bf16⟩
  | .local _ .vmem, ⟨7, _⟩ => ⟨S64x64, .bf16⟩
  | .local _ .vmem, ⟨8, _⟩ => ⟨S64, .f32⟩
  | .local _ .vmem, ⟨9, _⟩ => ⟨S64x32, .bf16⟩
  | .local _ .vmem, ⟨10, _⟩ => ⟨S5000x64, .f32⟩
  | .local _ .vmem, ⟨11, _⟩ => ⟨S5000x64, .f32⟩
  | .local _ .vmem, ⟨12, _⟩ => ⟨S5000x32, .bf16⟩
  | .local _ .vmem, ⟨13, _⟩ => ⟨S5000x32, .bf16⟩
  | .local _ .vmem, ⟨14, _⟩ => ⟨S5000x64, .f32⟩
  | .local _ .vmem, ⟨15, _⟩ => ⟨S5000x64, .f32⟩
  | .local _ .vmem, ⟨16, _⟩ => ⟨S5000x32, .f32⟩
  | .local _ .vmem, ⟨17, _⟩ => ⟨S5000x32, .f32⟩
  | .local _ .vmem, ⟨18, _⟩ => ⟨S5000x1, .f32⟩
  | .local _ .vmem, ⟨19, _⟩ => ⟨S5000x1, .f32⟩
  | .local _ .vmem, ⟨20, _⟩ => ⟨S64x32, .bf16⟩
  | .local _ .vmem, ⟨21, _⟩ => ⟨S32, .f32⟩
  | .local _ .vmem, ⟨22, _⟩ => ⟨S32x16, .bf16⟩
  | .local _ .vmem, ⟨23, _⟩ => ⟨S16, .f32⟩
  | .local _ .vmem, ⟨24, _⟩ => ⟨S16x2, .bf16⟩
  | .local _ .vmem, ⟨25, _⟩ => ⟨S2, .f32⟩
  | .local _ .vmem, ⟨26, _⟩ => ⟨S5000x2, .f32⟩
  | .local _ .vmem, ⟨27, _⟩ => ⟨S5000x2, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28_0 : Ref sig .tc := ⟨.hbm, 47, rfl⟩
abbrev main_v28_1 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x32 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x32 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x16 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x2 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x2 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x1 : S_.BroadcastsInDim S50000x1 (![] : Fin 0 → Fin S50000x1.rank)
  bitsLt_bf16_f32 : FTy.bits .bf16 < FTy.bits .f32
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S5000x32_S5000x32_0_0 : ∀ a, (![0, 0] : Fin 2 → Nat) a + S5000x32.size a ≤ S5000x32.size a
  h_S5000x32 : 0 < S5000x32.numel
  packedbf16_S5000x32_S5000x32_0_0 : (Rect.unit (s := S5000x32) ![0, 0] S5000x32.size inb_S5000x32_S5000x32_0_0).PackedRows (EltTy.packing .bf16)
  bcast_S_S50000x32 : S_.BroadcastsInDim S50000x32 (![] : Fin 0 → Fin S50000x32.rank)
  shapeCasts_S5000x32_S5000x32 : S5000x32.ShapeCasts S5000x32
  broadcasts_S5000x1_S5000x32 : S5000x1.Broadcasts S5000x32
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S16x2_S16x2_0_0 : ∀ a, (![0, 0] : Fin 2 → Nat) a + S16x2.size a ≤ S16x2.size a
  h_S16x2 : 0 < S16x2.numel
  shapeCasts_S16x2_S16x2 : S16x2.ShapeCasts S16x2
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  dot_S5000x32_S32x16_S5000x16_1_0_0_1_n_n_wf : DotDims.WF S5000x32 S32x16 S5000x16 [1] [0] [0] [1] [] []
  dot_S5000x16_S16x2_S5000x2_1_0_0_1_n_n_wf : DotDims.WF S5000x16 S16x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .bf16 = 32 ∨ (Rect.block (s := S64x32) S64x32.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S50000x64.size a
  hwx0_7 : ∀ i : grid0.Coords, EltTy.bits .f32 = 32 ∨ (Rect.block (s := S50000x64) S5000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x32.size a ≤ S50000x32.size a
  hwx0_8 : ∀ i : grid0.Coords, EltTy.bits .bf16 = 32 ∨ (Rect.block (s := S50000x32) S5000x32.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S50000x32.size a
  hwx1_1 : ∀ i : grid1.Coords, EltTy.bits .f32 = 32 ∨ (Rect.block (s := S50000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .bf16 = 32 ∨ (Rect.block (s := S64x32) S64x32.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x16.size a ≤ S32x16.size a
  hwx1_5 : ∀ i : grid1.Coords, EltTy.bits .bf16 = 32 ∨ (Rect.block (s := S32x16) S32x16.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16.size a ≤ S16.size a
  hwx1_6 : ∀ i : grid1.Coords, EltTy.bits .f32 = 32 ∨ (Rect.block (s := S16) S16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S16x2.size a ≤ S16x2.size a
  hwx1_7 : ∀ i : grid1.Coords, EltTy.bits .bf16 = 32 ∨ (Rect.block (s := S16x2) S16x2.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S2.size a ≤ S2.size a
  hwx1_8 : ∀ i : grid1.Coords, EltTy.bits .f32 = 32 ∨ (Rect.block (s := S2) S2.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x2.size a ≤ S50000x2.size a
  hwx1_9 : ∀ i : grid1.Coords, EltTy.bits .f32 = 32 ∨ (Rect.block (s := S50000x2) S5000x2.size (cc1_transform_9 i) (hinb1_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28_0) S5000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v28_1) S5000x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v28_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S32x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S16x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S2.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v43) S5000x2.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩
abbrev S50000x32 : Shape := ⟨2, ![50000, 32]⟩
abbrev S1x32 : Shape := ⟨2, ![1, 32]⟩
abbrev S50000x16 : Shape := ⟨2, ![50000, 16]⟩
abbrev S1x16 : Shape := ⟨2, ![1, 16]⟩
abbrev S50000x2 : Shape := ⟨2, ![50000, 2]⟩
abbrev S1x2 : Shape := ⟨2, ![1, 2]⟩

abbrev nBuf : Space → Nat
  | .hbm => 95
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S16x2, .f32⟩
  | .hbm, ⟨11, _⟩ => ⟨S2, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S_, .f32⟩
  | .hbm, ⟨26, _⟩ => ⟨S50000x64, .f32⟩
  | .hbm, ⟨27, _⟩ => ⟨S800000x1, .i32⟩
  | .hbm, ⟨28, _⟩ => ⟨S50000x64, .f32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x64, .f32⟩
  | .hbm, ⟨40, _⟩ => ⟨S50000x64, .f32⟩
  | .hbm, ⟨41, _⟩ => ⟨S50000x64, .f32⟩
  | .hbm, ⟨42, _⟩ => ⟨S1x64, .f32⟩
  | .hbm, ⟨43, _⟩ => ⟨S50000x64, .f32⟩
  | .hbm, ⟨44, _⟩ => ⟨S50000x64, .f32⟩
  | .hbm, ⟨45, _⟩ => ⟨S50000x64, .f32⟩
  | .hbm, ⟨46, _⟩ => ⟨S50000x64, .f32⟩
  | .hbm, ⟨47, _⟩ => ⟨S_, .f32⟩
  | .hbm, ⟨48, _⟩ => ⟨S50000x64, .f32⟩
  | .hbm, ⟨49, _⟩ => ⟨S50000x64, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x64, .f32⟩
  | .hbm, ⟨59, _⟩ => ⟨S_, .f32⟩
  | .hbm, ⟨60, _⟩ => ⟨S50000x64, .f32⟩
  | .hbm, ⟨61, _⟩ => ⟨S800000x1, .i32⟩
  | .hbm, ⟨62, _⟩ => ⟨S50000x64, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x64, .f32⟩
  | .hbm, ⟨74, _⟩ => ⟨S50000x64, .f32⟩
  | .hbm, ⟨75, _⟩ => ⟨S50000x32, .f32⟩
  | .hbm, ⟨76, _⟩ => ⟨S1x32, .f32⟩
  | .hbm, ⟨77, _⟩ => ⟨S50000x32, .f32⟩
  | .hbm, ⟨78, _⟩ => ⟨S50000x32, .f32⟩
  | .hbm, ⟨79, _⟩ => ⟨S50000x32, .f32⟩
  | .hbm, ⟨80, _⟩ => ⟨S50000x32, .f32⟩
  | .hbm, ⟨81, _⟩ => ⟨S_, .f32⟩
  | .hbm, ⟨82, _⟩ => ⟨S50000x32, .f32⟩
  | .hbm, ⟨83, _⟩ => ⟨S50000x32, .f32⟩
  | .hbm, ⟨84, _⟩ => ⟨S50000x16, .f32⟩
  | .hbm, ⟨85, _⟩ => ⟨S1x16, .f32⟩
  | .hbm, ⟨86, _⟩ => ⟨S50000x16, .f32⟩
  | .hbm, ⟨87, _⟩ => ⟨S50000x16, .f32⟩
  | .hbm, ⟨88, _⟩ => ⟨S_, .f32⟩
  | .hbm, ⟨89, _⟩ => ⟨S50000x16, .f32⟩
  | .hbm, ⟨90, _⟩ => ⟨S50000x16, .f32⟩
  | .hbm, ⟨91, _⟩ => ⟨S50000x2, .f32⟩
  | .hbm, ⟨92, _⟩ => ⟨S1x2, .f32⟩
  | .hbm, ⟨93, _⟩ => ⟨S50000x2, .f32⟩
  | .hbm, ⟨94, _⟩ => ⟨S50000x2, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_cst : Ref sig .tc := ⟨.hbm, 81, rfl⟩
abbrev main_call1_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call2_cst : Ref sig .tc := ⟨.hbm, 88, rfl⟩
abbrev main_call2_v0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x16 : S_.BroadcastsInDim S50000x16 (![] : Fin 0 → Fin S50000x16.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []
  dot_S50000x64_S64x32_S50000x32_1_0_0_1_n_n_wf : DotDims.WF S50000x64 S64x32 S50000x32 [1] [0] [0] [1] [] []
  dot_S50000x32_S32x16_S50000x16_1_0_0_1_n_n_wf : DotDims.WF S50000x32 S32x16 S50000x16 [1] [0] [0] [1] [] []
  dot_S50000x16_S16x2_S50000x2_1_0_0_1_n_n_wf : DotDims.WF S50000x16 S16x2 S50000x2 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x16_S50000x16_1_0_0_1_n_n : DotDims S50000x32 S32x16 S50000x16 where
  lhsContracting := [1]
  rhsContracting := [0]
  lhsNonContracting := [0]
  rhsNonContracting := [1]
  lhsBatch := []
  rhsBatch := []
  wf := dot_S50000x32_S32x16_S50000x16_1_0_0_1_n_n_wf
def dot_S50000x16_S16x2_S50000x2_1_0_0_1_n_n : DotDims S50000x16 S16x2 S50000x2 where
  lhsContracting := [1]
  rhsContracting := [0]
  lhsNonContracting := [0]
  rhsNonContracting := [1]
  lhsBatch := []
  rhsBatch := []
  wf := dot_S50000x16_S16x2_S50000x2_1_0_0_1_n_n_wf

class Facts : Prop extends Facts₀ where

variable [Facts]
-- ==== Proof.KernelRun.lean ====
/-
  The idealized kernel's run, with the result array NAMED.

  @main is four segments: host operations, the first kernel launch (ten blocks of 5000 rows), host
  operations again (the second gather and row sum), and the second launch.  Every weakly fair
  execution ends, without a fault, with each buffer at the contents obtained by folding the segments
  over the launch memory; in particular the result buffer ends at the last fold's contents of it, and
  every argument array ends as launched.
-/
import proofs.«156402_j7773890806311_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last segment
    boundary's contents of it and every argument array as launched. -/
theorem run_named : θ_run defs (onTc (τ := τ) (main (F := F))) ⟨m, fun _ => 0, ρ⟩ (fun r => ∀ c : Dev nD,
      r.2.mem ((c.tc : Thread nD τ).loc main_v43) = W4 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v43 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.Named

end
-- ==== Proof.RowGatherScatter.lean ====
import Idealize.ShloMosaic.PureOps.Ideal
import Idealize.ShloMosaic.Lib.ValueIdx

/-!
# Gather of whole rows and scatter-add of whole rows, read at one index

`stablehlo.gather` of the rows of an `[N, C]` operand at an `[E, 1]` array of row numbers (result `[E, C]`), and
`stablehlo.scatter` with an `add` body of the rows of an `[E, C]` update into an `[N, C]` operand at an `[E, 1]`
array of row numbers. The gather clamps the row number into `[0, N - 1]`; the scatter reads it signed, does not clamp,
and drops an update row whose row number is outside `[0, N)`.
-/

noncomputable section

open scoped BigOperators

namespace Cert.Sage

open Idealize.ShloMosaic Idealize.ShloMosaic.ValueIdx

/-! ## Gather of rows -/

/-- The dimension numbers of a gather of rows: operand `[N, C]`, start indices `[E, 1]`, result `[E, C]`;
    offset axis `1`, collapsed axis `0`, start index map `[0]`, index vector axis `1`, slice sizes `[1, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- a gathered row is the operand's row at the start index, read signed and clamped into [0, N-1] -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = _
    rw [GatherDims.batchCoord_eq_zero _ _ _ List.not_mem_nil]
    have hst : (rowGatherDims N E C wf).start (ix2 e k) idx 1 = 0 := by
      unfold GatherDims.start
      rw [dif_neg (show (1 : Fin 2) ∉ ([0] : List (Fin 2)) by decide)]
    have hoff : (rowGatherDims N E C wf).offCoord (ix2 e k) 1 = k.val := by
      unfold GatherDims.offCoord
      rw [dif_pos ((GatherDims.mem_sKept _ _).mpr
        ⟨show (1 : Fin 2) ∉ ([0] : List (Fin 2)) by decide, List.not_mem_nil⟩)]
      rfl
    rw [hst, hoff]
    simp

/-! ## Scatter-add of rows -/

/-- The dimension numbers of a scatter of rows: operand `[N, C]`, scatter indices `[E, 1]`, updates `[E, C]`;
    update window axis `1`, inserted window axis `0`, scatter axis to operand axis `[0]`, index vector axis `1`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section ScatterCoords
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k' : Fin C)

/-- On the row axis the window starts at the row number, read signed. -/
private theorem rowScatter_start0 :
    (rowScatterDims N E C wf).start (ix2 e k') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e k')
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`: the scatter index does not name that axis. -/
private theorem rowScatter_start1 : (rowScatterDims N E C wf).start (ix2 e k') idx 1 = 0 := by
  unfold ScatterDims.start
  rw [dif_neg (show (1 : Fin 2) ∉ ([0] : List (Fin 2)) by decide)]

/-- The row axis is an inserted window axis: its window coordinate is `0`. -/
private theorem rowScatter_window0 : (rowScatterDims N E C wf).window (ix2 e k') 0 = 0 := by
  unfold ScatterDims.window
  rw [dif_neg (show (0 : Fin 2) ∉ (⟨2, ![N, C]⟩ : Shape).kept ([0] : List (Fin 2)) by
    simp [Shape.kept, List.mem_filter])]

/-- The column axis carries the update's column coordinate. -/
private theorem rowScatter_window1 : (rowScatterDims N E C wf).window (ix2 e k') 1 = k'.val := by
  unfold ScatterDims.window
  rw [dif_pos (show (1 : Fin 2) ∈ (⟨2, ![N, C]⟩ : Shape).kept ([0] : List (Fin 2)) by
    simp [Shape.kept, List.mem_filter, List.mem_finRange])]
  rfl

end ScatterCoords

/-- where update index (e, k') lands: row number read signed, NOT clamped, dropped when outside [0, N) -/
theorem rowScatter_resultIdx {N E C w : Nat}
    (wf : ScatterDims.WF ⟨2, ![N, C]⟩ ⟨2, ![E, 1]⟩ ⟨2, ![E, C]⟩ [1] [0] [0] 1)
    (idx : IVec ⟨2, ![E, 1]⟩ w) (e : Fin E) (k' : Fin C) (i : Fin N) (k : Fin C) :
    (rowScatterDims N E C wf).resultIdx? (ix2 e k') idx = some (ix2 i k)
      ↔ ((idx (ix2 e (0 : Fin 1))).toInt = (i.val : Int) ∧ k' = k) := by
  have hs0 := rowScatter_start0 wf idx e k'
  have hs1 := rowScatter_start1 wf idx e k'
  have hw0 := rowScatter_window0 wf e k'
  have hw1 := rowScatter_window1 wf e k'
  unfold ScatterDims.resultIdx?
  constructor
  · intro h
    split at h
    · rename_i hc
      have h' := Option.some.inj h
      have h0 : ((rowScatterDims N E C wf).start (ix2 e k') idx 0
          + ((rowScatterDims N E C wf).window (ix2 e k') 0 : Int)).toNat = i.val :=
        congrArg (fun f : (⟨2, ![N, C]⟩ : Shape).Idx => (f 0).val) h'
      have h1 : ((rowScatterDims N E C wf).start (ix2 e k') idx 1
          + ((rowScatterDims N E C wf).window (ix2 e k') 1 : Int)).toNat = k.val :=
        congrArg (fun f : (⟨2, ![N, C]⟩ : Shape).Idx => (f 1).val) h'
      have hc0 := (hc 0).1
      rw [hs0, hw0] at h0 hc0
      rw [hs1, hw1] at h1
      refine ⟨by omega, Fin.ext (by omega)⟩
    · exact absurd h (by simp)
  · rintro ⟨hr, rfl⟩
    have hiN : i.val < N := i.isLt
    have hkC : k'.val < C := k'.isLt
    have hc : ∀ a : Fin 2, 0 ≤ (rowScatterDims N E C wf).start (ix2 e k') idx a
        + ((rowScatterDims N E C wf).window (ix2 e k') a : Int)
        ∧ (rowScatterDims N E C wf).start (ix2 e k') idx a
        + ((rowScatterDims N E C wf).window (ix2 e k') a : Int) < ((⟨2, ![N, C]⟩ : Shape).size a : Int) := by
      intro a
      match a with
      | ⟨0, _⟩ =>
        show 0 ≤ (rowScatterDims N E C wf).start (ix2 e k') idx 0 + ((rowScatterDims N E C wf).window (ix2 e k') 0 : Int)
          ∧ (rowScatterDims N E C wf).start (ix2 e k') idx 0 + ((rowScatterDims N E C wf).window (ix2 e k') 0 : Int) < (N : Int)
        rw [hs0, hw0, hr]; omega
      | ⟨1, _⟩ =>
        show 0 ≤ (rowScatterDims N E C wf).start (ix2 e k') idx 1 + ((rowScatterDims N E C wf).window (ix2 e k') 1 : Int)
          ∧ (rowScatterDims N E C wf).start (ix2 e k') idx 1 + ((rowScatterDims N E C wf).window (ix2 e k') 1 : Int) < (C : Int)
        rw [hs1, hw1]; omega
    rw [dif_pos hc]
    congr 1
    funext a
    refine Fin.ext ?_
    match a with
    | ⟨0, _⟩ =>
      show ((rowScatterDims N E C wf).start (ix2 e k') idx 0
        + ((rowScatterDims N E C wf).window (ix2 e k') 0 : Int)).toNat = i.val
      rw [hs0, hw0, hr]; omega
    | ⟨1, _⟩ =>
      show ((rowScatterDims N E C wf).start (ix2 e k') idx 1
        + ((rowScatterDims N E C wf).window (ix2 e k') 1 : Int)).toNat = k'.val
      rw [hs1, hw1]; omega

/-- entry (i, k) of the accumulated result: the operand's entry plus the sum, over the update rows e whose row number
    is i, of the update's entry (e, k) -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (i : Fin N) (k : Fin C) :
    Ideal.hostScatterAdd (rowScatterDims N E C wf) x idx upd (ix2 i k)
      = x (ix2 i k) + ∑ e ∈ Finset.univ.filter (fun e : Fin E => (idx (ix2 e (0 : Fin 1))).toInt = (i.val : Int)),
          upd (ix2 e k) := by
  unfold Ideal.hostScatterAdd
  congr 1
  symm
  refine Finset.sum_nbij' (fun e => ix2 e k) (fun j => j 0) ?_ ?_ ?_ ?_ ?_
  · intro e he
    rw [Finset.mem_filter] at he ⊢
    exact ⟨Finset.mem_univ _, (rowScatter_resultIdx wf idx e k i k).2 ⟨he.2, rfl⟩⟩
  · intro j hj
    obtain ⟨a, b, rfl⟩ : ∃ a b, j = ix2 a b := ⟨_, _, eq_ix2 j⟩
    rw [Finset.mem_filter] at hj
    exact Finset.mem_filter.2 ⟨Finset.mem_univ _, ((rowScatter_resultIdx wf idx a b i k).1 hj.2).1⟩
  · intro e _
    rfl
  · intro j hj
    obtain ⟨a, b, rfl⟩ : ∃ a b, j = ix2 a b := ⟨_, _, eq_ix2 j⟩
    rw [Finset.mem_filter] at hj
    obtain ⟨_, rfl⟩ := (rowScatter_resultIdx wf idx a b i k).1 hj.2
    rfl
  · intro e _
    rfl

end Cert.Sage

end
-- ==== Proof.Spec.lean ====
/-
  The two programs as whole-array functions on the extended reals.

  A graph with 50000 nodes and 800000 edges is given by two arrays of row numbers, `src` and `dst`
  (one per edge).  `agg x` sums, for every node `i`, the rows `x[src e]` over the edges `e` with
  `dst e = i`; `cnt i` counts those edges; `c i = max (cnt i) 1`.

  The reference computes, layer by layer,
      H  = relu ((agg X / c) · W1L + b1 + X · W1R)
      H2 = relu ((agg H / c) · W2L + b2 + H · W2R)
      out = relu (H2 · WC1 + bc1) · WC2 + bc2.
  The kernel multiplies by the reciprocal `1 / c` instead of dividing, adds the bias last, and in the
  second layer projects BEFORE it aggregates: it forms `P = H · W2L` and uses `agg P · (1 / c)` where
  the reference has `(agg H / c) · W2L`.  Both are the mean over the incoming edges of the projected
  rows; they agree because, on real entries, a factor moves across a finite sum.
-/
import Idealize.ShloMosaic.PureOps.Ideal
import Idealize.ShloMosaic.Lib.ValueIdx
import proofs.«156402_j7773890806311_2_alg».proof.Proof.RowGatherScatter

noncomputable section

open scoped BigOperators

namespace Cert.Sage

open Idealize.ShloMosaic Idealize.ShloMosaic.ValueIdx

/-- A matrix of extended reals with `a` rows and `b` columns. -/
abbrev A2 (a b : Nat) : Type := (⟨2, ![a, b]⟩ : Shape).Idx → EReal
/-- A vector of extended reals of length `a`. -/
abbrev A1 (a : Nat) : Type := (⟨1, ![a]⟩ : Shape).Idx → EReal
/-- One row number per edge. -/
abbrev EdgeRows : Type := IVec ⟨2, ![800000, 1]⟩ 32

/-- The word of `+0.0`; it denotes `0`. -/
abbrev Z : EReal := Ideal.ofBits .f32 0x00000000#32
/-- The word of `1.0`; it denotes `1`. -/
abbrev One : EReal := Ideal.ofBits .f32 0x3F800000#32

/-- The edge list as the programs take it: a [2, 800000] array of 32-bit row numbers, row 0 the sources and row 1 the
    destinations. -/
abbrev EdgeList : Type := IVec ⟨2, ![2, 800000]⟩ 32

/-- The destination row of every edge, as a column. -/
def dstRows (ei : EdgeList) : EdgeRows :=
  broadcastInDim ⟨2, ![800000, 1]⟩ ![0] (by decide)
    (shapeCast ⟨1, ![800000]⟩ (extractStridedSlice ⟨2, ![1, 800000]⟩ ![1, 0] ei (by decide)) (by decide))

/-- The source row of every edge, as a column; a negative row number counts from the end (`+ 50000`). -/
def srcRows (ei : EdgeList) : EdgeRows :=
  broadcastInDim ⟨2, ![800000, 1]⟩ ![0] (by decide)
    (select
      (cmpi .slt (shapeCast ⟨1, ![800000]⟩ (extractStridedSlice ⟨2, ![1, 800000]⟩ ![0, 0] ei (by decide)) (by decide))
        (broadcastInDim ⟨1, ![800000]⟩ ![] (by decide) (constantI ⟨0, ![]⟩ 32 0#32)))
      (addi (shapeCast ⟨1, ![800000]⟩ (extractStridedSlice ⟨2, ![1, 800000]⟩ ![0, 0] ei (by decide)) (by decide))
        (broadcastInDim ⟨1, ![800000]⟩ ![] (by decide) (constantI ⟨0, ![]⟩ 32 50000#32)))
      (shapeCast ⟨1, ![800000]⟩ (extractStridedSlice ⟨2, ![1, 800000]⟩ ![0, 0] ei (by decide)) (by decide)))

/-- Row sums over incoming edges: entry `(i, k)` is `0 + ∑ x[src e, k]` over the edges `e` whose `dst` is `i`. -/
def agg (C : Nat) (wfS : ScatterDims.WF ⟨2, ![50000, C]⟩ ⟨2, ![800000, 1]⟩ ⟨2, ![800000, C]⟩ [1] [0] [0] 1)
    (wfG : GatherDims.WF ⟨2, ![50000, C]⟩ ⟨2, ![800000, 1]⟩ ⟨2, ![800000, C]⟩ [1] [0] [] [0] [] 1 ![1, C])
    (dst src : EdgeRows) (x : A2 50000 C) : A2 50000 C :=
  Ideal.hostScatterAdd (rowScatterDims 50000 800000 C wfS) (fun _ => Z) dst
    (Host.gather (rowGatherDims 50000 800000 C wfG) x src)

/-- The dimension numbers of the edge count: one unit update per edge, added at its `dst` row. -/
abbrev cntDims : ScatterDims ⟨1, ![50000]⟩ ⟨2, ![800000, 1]⟩ ⟨1, ![800000]⟩ where
  updateWindowDims := []
  insertedWindowDims := [0]
  scatterDimsToOperandDims := [0]
  indexVectorDim := 1
  wf := by decide

/-- The number of incoming edges of every node, as a sum of ones. -/
def cnt (dst : EdgeRows) : A1 50000 :=
  Ideal.hostScatterAdd cntDims (fun _ => Z) dst (fun _ => One)

/-- The divisor of the mean: the edge count, at least one. -/
def clampCnt (dst : EdgeRows) : A1 50000 := fun j => max (cnt dst j) One

/-! ## The kernel's shape (any number of rows `R`: a block of 5000 rows or the whole 50000) -/

/-- First layer, kernel's order: `relu (((S · inv) · WL + X · WR) + b)`, `inv` a column. -/
def hidK {R : Nat} (X S : A2 R 64) (I : A2 R 1) (WL WR : A2 64 64) (B : A1 64) : A2 R 64 := fun i =>
  max (((∑ k : Fin 64, (S (ix2 (i 0) k) * I (ix2 (i 0) 0)) * WL (ix2 k (i 1)))
        + (∑ k : Fin 64, X (ix2 (i 0) k) * WR (ix2 k (i 1)))) + B (ix1 (i 1))) Z

/-- The projection of the hidden rows that the kernel aggregates in the second layer. -/
def projK {R : Nat} (H : A2 R 64) (W : A2 64 32) : A2 R 32 := fun i =>
  ∑ k : Fin 64, H (ix2 (i 0) k) * W (ix2 k (i 1))

/-- The classifier on a second-layer row: `relu (h2 · WC1 + bc1) · WC2 + bc2`. -/
def tail {R : Nat} (h2 : Fin R → Fin 32 → EReal) (WC1 : A2 32 16) (BC1 : A1 16) (WC2 : A2 16 2) (BC2 : A1 2) : A2 R 2 :=
  fun i => (∑ k : Fin 16, max ((∑ k' : Fin 32, h2 (i 0) k' * WC1 (ix2 k' k)) + BC1 (ix1 k)) Z * WC2 (ix2 k (i 1)))
    + BC2 (ix1 (i 1))

/-- Second layer and classifier, kernel's order: `h2 = relu ((P · inv + H · WR) + b2)`. -/
def headK {R : Nat} (H : A2 R 64) (P : A2 R 32) (I : A2 R 1) (WR : A2 64 32) (B2 : A1 32)
    (WC1 : A2 32 16) (BC1 : A1 16) (WC2 : A2 16 2) (BC2 : A1 2) : A2 R 2 :=
  tail (fun r n => max (((P (ix2 r n) * I (ix2 r 0)) + ∑ k : Fin 64, H (ix2 r k) * WR (ix2 k n)) + B2 (ix1 n)) Z)
    WC1 BC1 WC2 BC2

/-- The reciprocal column the kernel multiplies by. -/
def invCol (dst : EdgeRows) : A2 50000 1 := fun j => Ideal.div One (max (cnt dst (ix1 (j 0))) One)

/-- The kernel's result array as a function of the argument arrays. -/
def kerOut (dst src : EdgeRows) (X : A2 50000 64) (W1L W1R : A2 64 64) (B1 : A1 64) (W2L W2R : A2 64 32) (B2 : A1 32)
    (WC1 : A2 32 16) (BC1 : A1 16) (WC2 : A2 16 2) (BC2 : A1 2) : A2 50000 2 :=
  headK (hidK X (agg 64 (by decide) (by decide) dst src X) (invCol dst) W1L W1R B1)
    (agg 32 (by decide) (by decide) dst src (projK (hidK X (agg 64 (by decide) (by decide) dst src X) (invCol dst) W1L W1R B1) W2L))
    (invCol dst) W2R B2 WC1 BC1 WC2 BC2

/-! ## The reference's shape -/

/-- First layer, reference's order: `relu (((S / c) · WL + b) + X · WR)`. -/
def hidR (X S : A2 50000 64) (c : A1 50000) (WL WR : A2 64 64) (B : A1 64) : A2 50000 64 := fun i =>
  max (((∑ k : Fin 64, Ideal.div (S (ix2 (i 0) k)) (c (ix1 (i 0))) * WL (ix2 k (i 1))) + B (ix1 (i 1)))
        + (∑ k : Fin 64, X (ix2 (i 0) k) * WR (ix2 k (i 1)))) Z

/-- Second layer and classifier, reference's order: `h2 = relu (((S2 / c) · W2L + b2) + H · W2R)`. -/
def headR (H S2 : A2 50000 64) (c : A1 50000) (W2L W2R : A2 64 32) (B2 : A1 32)
    (WC1 : A2 32 16) (BC1 : A1 16) (WC2 : A2 16 2) (BC2 : A1 2) : A2 50000 2 :=
  tail (fun r n => max (((∑ k : Fin 64, Ideal.div (S2 (ix2 r k)) (c (ix1 r)) * W2L (ix2 k n)) + B2 (ix1 n))
      + ∑ k : Fin 64, H (ix2 r k) * W2R (ix2 k n)) Z) WC1 BC1 WC2 BC2

/-- The reference's result array as a function of the argument arrays. -/
def refOut (dst src : EdgeRows) (X : A2 50000 64) (W1L W1R : A2 64 64) (B1 : A1 64) (W2L W2R : A2 64 32) (B2 : A1 32)
    (WC1 : A2 32 16) (BC1 : A1 16) (WC2 : A2 16 2) (BC2 : A1 2) : A2 50000 2 :=
  headR (hidR X (agg 64 (by decide) (by decide) dst src X) (clampCnt dst) W1L W1R B1)
    (agg 64 (by decide) (by decide) dst src (hidR X (agg 64 (by decide) (by decide) dst src X) (clampCnt dst) W1L W1R B1))
    (clampCnt dst) W2L W2R B2 WC1 BC1 WC2 BC2

end Cert.Sage

end
-- ==== Proof.KernelHost.lean ====
/-
  What the host operations around the two kernel launches compute.

  Before the first launch: the edge list is split into its source and destination rows, the incoming
  edges of every node are counted, the reciprocal of the count (at least one) is formed, and the source
  rows of the node features are gathered and summed per destination node.  Between the launches the
  same gather and sum are applied to the first launch's projected hidden rows.  Weights are only changed
  in format, which is the identity on extended reals.  Each lemma below names the contents of one array
  a launch reads, as a function of the argument arrays.
-/
import proofs.«156402_j7773890806311_2_alg».proof.Proof.Gen.KernelIdeal.Frame
import proofs.«156402_j7773890806311_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Named

open Cert.KernelIdeal Cert.KernelIdeal.Gen Cert.Sage
open Idealize.ShloMosaic Idealize.ShloMosaic.TcCoe Idealize.ShloMosaic.Tactic Idealize.ShloMosaic.StableHlo
open Idealize.ShloMosaic.ValueIdx
open Idealize.SL Idealize.SL.Sem

variable (m : (ℓ : Loc nD τ sig) → Buf (Elt Ideal) ℓ) (ρ : Dev nD → PrngReg)

/-! ## The argument arrays, by name -/

/-- The node features. -/
abbrev aX (c : Dev nD) : A2 50000 64 := m ((c : Thread nD τ).loc main_arg0)
/-- The edge list. -/
abbrev aE (c : Dev nD) : EdgeList := m ((c : Thread nD τ).loc main_arg1)
abbrev aW1L (c : Dev nD) : A2 64 64 := m ((c : Thread nD τ).loc main_arg2)
abbrev aW1R (c : Dev nD) : A2 64 64 := m ((c : Thread nD τ).loc main_arg3)
abbrev aB1 (c : Dev nD) : A1 64 := m ((c : Thread nD τ).loc main_arg4)
abbrev aW2L (c : Dev nD) : A2 64 32 := m ((c : Thread nD τ).loc main_arg5)
abbrev aW2R (c : Dev nD) : A2 64 32 := m ((c : Thread nD τ).loc main_arg6)
abbrev aB2 (c : Dev nD) : A1 32 := m ((c : Thread nD τ).loc main_arg7)
abbrev aWC1 (c : Dev nD) : A2 32 16 := m ((c : Thread nD τ).loc main_arg8)
abbrev aBC1 (c : Dev nD) : A1 16 := m ((c : Thread nD τ).loc main_arg9)
abbrev aWC2 (c : Dev nD) : A2 16 2 := m ((c : Thread nD τ).loc main_arg10)
abbrev aBC2 (c : Dev nD) : A1 2 := m ((c : Thread nD τ).loc main_arg11)

/-! ## The host operations as specification terms (no memory involved) -/

/-- Gathering the source rows of a 64-column array and adding them up per destination row is `agg 64`; the two format
    changes around the gather are the identity on extended reals. -/
theorem sumRows64 (dst src : EdgeRows) (X : A2 50000 64) :
    Host.scatterAdd (F := Ideal) scatter_S50000x64_S800000x1_S800000x64_1_0_0_1
      (broadcastInDim S50000x64 ![] bcast_S_S50000x64 (constant S_ FTy.f32 0#32)) dst
      (extf FTy.f32 (Host.gather gather_S50000x64_S800000x1_S800000x64_1_0_n_n_0_1_164 (truncf .bf16 X bitsLt_bf16_f32) src) bitsLt_bf16_f32)
    = agg 64 (by decide) (by decide) dst src X := rfl

/-- The same for the 32-column projected rows. -/
theorem sumRows32 (dst src : EdgeRows) (P : A2 50000 32) :
    Host.scatterAdd (F := Ideal) scatter_S50000x32_S800000x1_S800000x32_1_0_0_1
      (broadcastInDim S50000x32 ![] bcast_S_S50000x32 (constant S_ FTy.f32 0#32)) dst
      (extf FTy.f32 (Host.gather gather_S50000x32_S800000x1_S800000x32_1_0_n_n_0_1_132 P src) bitsLt_bf16_f32)
    = agg 32 (by decide) (by decide) dst src P := rfl

/-- A vector reshaped to a column, entry by entry. -/
theorem colOfVec (v : A1 50000) (j : S50000x1.Idx) :
    shapeCast S50000x1 v shapeCasts_S50000_S50000x1 j = v (ix1 (j 0)) :=
  shapeCast_apply v shapeCasts_S50000_S50000x1 j (ix1 (j 0)) (by
    rw [Shape.rowMajor_val_one, Shape.rowMajor_val_two]
    have h1 : (j 1).val < 1 := idx2_lt1 j
    show (j 0).val = (j 0).val * 1 + (j 1).val
    omega)

/-- One over a vector clamped below by one, as a column. -/
theorem recipCol (v : A1 50000) :
    Host.divf (F := Ideal) (broadcastInDim S50000x1 ![] bcast_S_S50000x1 (constant S_ FTy.f32 0x3F800000#32))
      (maximumf (shapeCast S50000x1 v shapeCasts_S50000_S50000x1)
        (broadcastInDim S50000x1 ![] bcast_S_S50000x1 (constant S_ FTy.f32 0x3F800000#32)))
    = fun j => Ideal.div One (max (v (ix1 (j 0))) One) := by
  funext j
  have h := colOfVec v j
  generalize shapeCast S50000x1 v shapeCasts_S50000_S50000x1 = w at h ⊢
  show Ideal.div One (max (w j) One) = Ideal.div One (max (v (ix1 (j 0))) One)
  rw [h]

/-- The edge count as the host computes it is the specification's. -/
theorem cntIs (dst : EdgeRows) :
    Host.scatterAdd (F := Ideal) scatter_S50000_S800000x1_S800000_n_0_0_1
      (broadcastInDim S50000 ![] bcast_S_S50000 (constant S_ FTy.f32 0#32)) dst
      (broadcastInDim S800000 ![] bcast_S_S800000 (constant S_ FTy.f32 0x3F800000#32)) = cnt dst := rfl

/-- One over the edge count (at least one), as a column: the count is a vector, reshaped to a column entry by entry. -/
theorem recipOfCount (dst : EdgeRows) :
    Host.divf (F := Ideal) (broadcastInDim S50000x1 ![] bcast_S_S50000x1 (constant S_ FTy.f32 0x3F800000#32))
      (maximumf
        (shapeCast S50000x1
          (Host.scatterAdd scatter_S50000_S800000x1_S800000_n_0_0_1
            (broadcastInDim S50000 ![] bcast_S_S50000 (constant S_ FTy.f32 0#32)) dst
            (broadcastInDim S800000 ![] bcast_S_S800000 (constant S_ FTy.f32 0x3F800000#32)))
          shapeCasts_S50000_S50000x1)
        (broadcastInDim S50000x1 ![] bcast_S_S50000x1 (constant S_ FTy.f32 0x3F800000#32)))
    = invCol dst := by
  rw [cntIs]
  exact recipCol (cnt dst)

/-! ## Before the first launch -/

/-- The destination rows, as the first stretch of host operations leaves them. -/
theorem W1_dst (c : Dev nD) :
    broadcastInDim S800000x1 ![0] bcast_S800000_S800000x1_0 (W1 m ρ c (Proc.devRef .tc main_v3)) = dstRows (aE m c) := by
  show broadcastInDim S800000x1 ![0] bcast_S800000_S800000x1_0 (StableHlo.after hostOps0 (W0 m ρ c) (Proc.devRef .tc main_v3)) = _
  after_results
  rfl

/-- The source rows (negative numbers wrapped), from the first stretch's source vector. -/
theorem W1_src (c : Dev nD) :
    broadcastInDim S800000x1 ![0] bcast_S800000_S800000x1_0
      (select (cmpi CmpIPredicate.slt (W1 m ρ c (Proc.devRef .tc main_v1)) (broadcastInDim S800000 ![] bcast_S_S800000 (constantI S_ 32 0#32)))
        (addi (W1 m ρ c (Proc.devRef .tc main_v1)) (broadcastInDim S800000 ![] bcast_S_S800000 (constantI S_ 32 50000#32)))
        (W1 m ρ c (Proc.devRef .tc main_v1))) = srcRows (aE m c) := by
  show broadcastInDim S800000x1 ![0] bcast_S800000_S800000x1_0
      (select (cmpi CmpIPredicate.slt (StableHlo.after hostOps0 (W0 m ρ c) (Proc.devRef .tc main_v1)) (broadcastInDim S800000 ![] bcast_S_S800000 (constantI S_ 32 0#32)))
        (addi (StableHlo.after hostOps0 (W0 m ρ c) (Proc.devRef .tc main_v1)) (broadcastInDim S800000 ![] bcast_S_S800000 (constantI S_ 32 50000#32)))
        (StableHlo.after hostOps0 (W0 m ρ c) (Proc.devRef .tc main_v1))) = _
  after_results
  rfl

/-- The features reach the first launch unchanged. -/
theorem entry0_0 (c : Dev nD) : V1 m ρ c main_arg0 = aX m c := by
  show StableHlo.after hostOps0 (W0 m ρ c) (Proc.devRef .tc main_arg0) = _
  after_results

set_option maxHeartbeats 4000000 in
/-- The first launch's second operand: the per-node sums of the gathered feature rows. -/
theorem entry0_1 (c : Dev nD) :
    V1 m ρ c main_v24 = agg 64 (by decide) (by decide) (dstRows (aE m c)) (srcRows (aE m c)) (aX m c) := by
  show StableHlo.after hostOps0 (W0 m ρ c) (Proc.devRef .tc main_v24) = _
  after_results_simp
  refine (sumRows64 _ _ _).trans ?_
  rfl

/-- Its third operand: the reciprocal of the clamped edge count. -/
theorem entry0_2 (c : Dev nD) : V1 m ρ c main_v12 = invCol (dstRows (aE m c)) := by
  show StableHlo.after hostOps0 (W0 m ρ c) (Proc.devRef .tc main_v12) = _
  after_results
  refine (recipOfCount _).trans ?_
  rfl

/-- The weights and the bias of the first layer, and the second layer's left weights. -/
theorem entry0_3 (c : Dev nD) : V1 m ρ c main_v25 = aW1L m c := by
  show StableHlo.after hostOps0 (W0 m ρ c) (Proc.devRef .tc main_v25) = _
  after_results
  rfl
theorem entry0_4 (c : Dev nD) : V1 m ρ c main_v26 = aW1R m c := by
  show StableHlo.after hostOps0 (W0 m ρ c) (Proc.devRef .tc main_v26) = _
  after_results
  rfl
theorem entry0_5 (c : Dev nD) : V1 m ρ c main_arg4 = aB1 m c := by
  show StableHlo.after hostOps0 (W0 m ρ c) (Proc.devRef .tc main_arg4) = _
  after_results
theorem entry0_6 (c : Dev nD) : V1 m ρ c main_v27 = aW2L m c := by
  show StableHlo.after hostOps0 (W0 m ρ c) (Proc.devRef .tc main_v27) = _
  after_results
  rfl

/-! ## Between the launches -/

/-- An argument array no host operation and no launch writes is, after the first launch, what was launched. -/
theorem W2_arg6 (c : Dev nD) : W2 m ρ c (Proc.devRef .tc main_arg6) = aW2R m c := by
  rw [W2_of_ne m ρ c main_arg6 (by decide)]
  show StableHlo.after hostOps0 (W0 m ρ c) (Proc.devRef .tc main_arg6) = _
  after_results
theorem W2_arg7 (c : Dev nD) : W2 m ρ c (Proc.devRef .tc main_arg7) = aB2 m c := by
  rw [W2_of_ne m ρ c main_arg7 (by decide)]
  show StableHlo.after hostOps0 (W0 m ρ c) (Proc.devRef .tc main_arg7) = _
  after_results
theorem W2_arg8 (c : Dev nD) : W2 m ρ c (Proc.devRef .tc main_arg8) = aWC1 m c := by
  rw [W2_of_ne m ρ c main_arg8 (by decide)]
  show StableHlo.after hostOps0 (W0 m ρ c) (Proc.devRef .tc main_arg8) = _
  after_results
theorem W2_arg9 (c : Dev nD) : W2 m ρ c (Proc.devRef .tc main_arg9) = aBC1 m c := by
  rw [W2_of_ne m ρ c main_arg9 (by decide)]
  show StableHlo.after hostOps0 (W0 m ρ c) (Proc.devRef .tc main_arg9) = _
  after_results
theorem W2_arg10 (c : Dev nD) : W2 m ρ c (Proc.devRef .tc main_arg10) = aWC2 m c := by
  rw [W2_of_ne m ρ c main_arg10 (by decide)]
  show StableHlo.after hostOps0 (W0 m ρ c) (Proc.devRef .tc main_arg10) = _
  after_results
theorem W2_arg11 (c : Dev nD) : W2 m ρ c (Proc.devRef .tc main_arg11) = aBC2 m c := by
  rw [W2_of_ne m ρ c main_arg11 (by decide)]
  show StableHlo.after hostOps0 (W0 m ρ c) (Proc.devRef .tc main_arg11) = _
  after_results

/-- The reciprocal column is an input of the first launch: it leaves it as it found it. -/
theorem W2_v12 (c : Dev nD) : W2 m ρ c (Proc.devRef .tc main_v12) = invCol (dstRows (aE m c)) :=
  ((W2_arr m ρ c 2).trans (((dat0 (V1 m ρ) c).arrAt_in 2 rfl _).trans (A_eq0 (V1 m ρ) c 2))).trans (entry0_2 m ρ c)

/-- The second launch's first operand is the first launch's first result. -/
theorem entry1_0 (c : Dev nD) : V3 m ρ c main_v28_0 = W2 m ρ c (Proc.devRef .tc main_v28_0) := by
  show StableHlo.after hostOps1 (W2 m ρ c) (Proc.devRef .tc main_v28_0) = _
  after_results

set_option maxHeartbeats 4000000 in
/-- Its second operand: the per-node sums of the gathered PROJECTED rows (the first launch's second result). -/
theorem entry1_1 (c : Dev nD) :
    V3 m ρ c main_v39
      = agg 32 (by decide) (by decide) (dstRows (aE m c)) (srcRows (aE m c)) (W2 m ρ c (Proc.devRef .tc main_v28_1)) := by
  show StableHlo.after hostOps1 (W2 m ρ c) (Proc.devRef .tc main_v39) = _
  after_results_simp
  rw [W2_of_ne m ρ c main_v3 (by decide), W2_of_ne m ρ c main_v1 (by decide)]
  refine (sumRows32 _ _ _).trans ?_
  exact congrArg₂ (fun d s => agg 32 (by decide) (by decide) d s (W2 m ρ c (Proc.devRef .tc main_v28_1)))
    (W1_dst m ρ c) (W1_src m ρ c)

/-- Its third operand is again the reciprocal column. -/
theorem entry1_2 (c : Dev nD) : V3 m ρ c main_v12 = invCol (dstRows (aE m c)) := by
  show StableHlo.after hostOps1 (W2 m ρ c) (Proc.devRef .tc main_v12) = _
  after_results
  exact W2_v12 m ρ c

/-- The remaining weights and biases. -/
theorem entry1_3 (c : Dev nD) : V3 m ρ c main_v40 = aW2R m c := by
  show StableHlo.after hostOps1 (W2 m ρ c) (Proc.devRef .tc main_v40) = _
  after_results
  rw [W2_arg6]
  rfl
theorem entry1_4 (c : Dev nD) : V3 m ρ c main_arg7 = aB2 m c := by
  show StableHlo.after hostOps1 (W2 m ρ c) (Proc.devRef .tc main_arg7) = _
  after_results
  exact W2_arg7 m ρ c
theorem entry1_5 (c : Dev nD) : V3 m ρ c main_v41 = aWC1 m c := by
  show StableHlo.after hostOps1 (W2 m ρ c) (Proc.devRef .tc main_v41) = _
  after_results
  rw [W2_arg8]
  rfl
theorem entry1_6 (c : Dev nD) : V3 m ρ c main_arg9 = aBC1 m c := by
  show StableHlo.after hostOps1 (W2 m ρ c) (Proc.devRef .tc main_arg9) = _
  after_results
  exact W2_arg9 m ρ c
theorem entry1_7 (c : Dev nD) : V3 m ρ c main_v42 = aWC2 m c := by
  show StableHlo.after hostOps1 (W2 m ρ c) (Proc.devRef .tc main_v42) = _
  after_results
  rw [W2_arg10]
  rfl
theorem entry1_8 (c : Dev nD) : V3 m ρ c main_arg11 = aBC2 m c := by
  show StableHlo.after hostOps1 (W2 m ρ c) (Proc.devRef .tc main_arg11) = _
  after_results
  exact W2_arg11 m ρ c

end Cert.KernelIdeal.Named

end
-- ==== Proof.Payloads.lean ====
/-
  The arithmetic of the two kernel bodies.  Each body's stored value is one pure term of the blocks it loads; read
  at an index (p, q) on the extended reals, where every change of number format is the identity and a matrix
  product into the zero accumulator is a plain sum of products, that term is the row formula of the specification:
  the first body's two values are the hidden row and its projection, the second body's value is the second layer
  followed by the classifier.
-/
import proofs.«156402_j7773890806311_2_alg».proof.Proof.Gen.KernelIdeal.Skeleton
import proofs.«156402_j7773890806311_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Sage

open Cert.KernelIdeal Cert.KernelIdeal.Gen Idealize.ShloMosaic Idealize.ShloMosaic.ValueIdx

variable [Cert.KernelIdeal.Facts]
open Cert.KernelIdeal.Facts₀ Cert.KernelIdeal.Facts

/-! ## A matrix product into the zero accumulator, read at an index -/

theorem mm_64_64_l0 (j : S5000x64.Idx) (c : dot_S5000x64_S64x64_S5000x64_1_0_0_1_n_n.contr.Idx) :
    (dot_S5000x64_S64x64_S5000x64_1_0_0_1_n_n.lhsIdx j c 0).val = (j 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

theorem mm_64_64_r1 (j : S5000x64.Idx) (c : dot_S5000x64_S64x64_S5000x64_1_0_0_1_n_n.contr.Idx) :
    (dot_S5000x64_S64x64_S5000x64_1_0_0_1_n_n.rhsIdx j c 1).val = (j 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A [5000,64] by [64,64] product into the zero accumulator, read at (p, q): the sum over the shared axis. -/
theorem mm_64_64 (l : FVec Ideal S5000x64 .bf16) (r : FVec Ideal S64x64 .bf16) (p : Fin 5000) (q : Fin 64) :
    matmul (F := Ideal) dot_S5000x64_S64x64_S5000x64_1_0_0_1_n_n none l r (constant (F := Ideal) S5000x64 .f32 0x00000000#32) (ix2 p q)
      = ∑ k : Fin 64, l (ix2 p k) * r (ix2 k q) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q)
      ((contrEquiv1 dot_S5000x64_S64x64_S5000x64_1_0_0_1_n_n 64 rfl rfl).symm k) = ix2 p k :=
    funext fun a => Fin.ext (by
      match a with
      | ⟨0, _⟩ => exact mm_64_64_l0 _ _
      | ⟨1, _⟩ => exact (dot_S5000x64_S64x64_S5000x64_1_0_0_1_n_n.lhsIdx_val_of_single rfl _ _).trans hk)
  have er : dot_S5000x64_S64x64_S5000x64_1_0_0_1_n_n.rhsIdx (ix2 p q)
      ((contrEquiv1 dot_S5000x64_S64x64_S5000x64_1_0_0_1_n_n 64 rfl rfl).symm k) = ix2 k q :=
    funext fun a => Fin.ext (by
      match a with
      | ⟨0, _⟩ => exact (dot_S5000x64_S64x64_S5000x64_1_0_0_1_n_n.rhsIdx_val_of_single rfl _ _).trans hk
      | ⟨1, _⟩ => exact mm_64_64_r1 _ _)
  rw [el, er]

theorem mm_64_32_l0 (j : S5000x32.Idx) (c : dot_S5000x64_S64x32_S5000x32_1_0_0_1_n_n.contr.Idx) :
    (dot_S5000x64_S64x32_S5000x32_1_0_0_1_n_n.lhsIdx j c 0).val = (j 0).val := by
  unfold DotDims.lhsIdx
  rw [dif_neg (show ¬(0 : Fin S5000x64.rank) ∈ dot_S5000x64_S64x32_S5000x32_1_0_0_1_n_n.lhsBatch by decide),
    dif_pos (show (0 : Fin S5000x64.rank) ∈ dot_S5000x64_S64x32_S5000x32_1_0_0_1_n_n.lhsNonContracting by decide)]
  rfl

theorem mm_64_32_r1 (j : S5000x32.Idx) (c : dot_S5000x64_S64x32_S5000x32_1_0_0_1_n_n.contr.Idx) :
    (dot_S5000x64_S64x32_S5000x32_1_0_0_1_n_n.rhsIdx j c 1).val = (j 1).val := by
  unfold DotDims.rhsIdx
  rw [dif_neg (show ¬(1 : Fin S64x32.rank) ∈ dot_S5000x64_S64x32_S5000x32_1_0_0_1_n_n.rhsBatch by decide),
    dif_pos (show (1 : Fin S64x32.rank) ∈ dot_S5000x64_S64x32_S5000x32_1_0_0_1_n_n.rhsNonContracting by decide)]
  rfl

/-- A [5000,64] by [64,32] product into the zero accumulator, read at (p, q). -/
theorem mm_64_32 (l : FVec Ideal S5000x64 .bf16) (r : FVec Ideal S64x32 .bf16) (p : Fin 5000) (q : Fin 32) :
    matmul (F := Ideal) dot_S5000x64_S64x32_S5000x32_1_0_0_1_n_n none l r (constant (F := Ideal) S5000x32 .f32 0x00000000#32) (ix2 p q)
      = ∑ k : Fin 64, l (ix2 p k) * r (ix2 k q) := by
  simp only [matmul]
  rw [Ideal.matmul_constant_zero_apply,
    ← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p q)
      ((contrEquiv1 dot_S5000x64_S64x32_S5000x32_1_0_0_1_n_n 64 rfl rfl).symm k) = ix2 p k :=
    funext fun a => Fin.ext (by
      match a with
      | ⟨0, _⟩ => exact mm_64_32_l0 _ _
      | ⟨1, _⟩ => exact (dot_S5000x64_S64x32_S5000x32_1_0_0_1_n_n.lhsIdx_val_of_single rfl _ _).trans hk)
  have er : dot_S5000x64_S64x32_S5000x32_1_0_0_1_n_n.rhsIdx (ix2 p q)
      ((contrEquiv1 dot_S5000x64_S64x32_S5000x32_1_0_0_1_n_n 64 rfl rfl).symm k) = ix2 k q :=
    funext fun a => Fin.ext (by
      match a with
      | ⟨0, _⟩ => exact (dot_S5000x64_S64x32_S5000x32_1_0_0_1_n_n.rhsIdx_val_of_single rfl _ _).trans hk
      | ⟨1, _⟩ => exact mm_64_32_r1 _ _)
  rw [el, er]

theorem mm_32_16_l0 (j : S5000x16.Idx) (c : dot_S5000x32_S32x16_S5000x16_1_0_0_1_n_n.contr.Idx) :
    (dot_S5000x32_S32x16_S5000x16_1_0_0_1_n_n.lhsIdx j c 0).val = (j 0).val := by
  unfold DotDims.lhsIdx
  rw [dif_neg (show ¬(0 : Fin S5000x32.rank) ∈ dot_S5000x32_S32x16_S5000x16_1_0_0_1_n_n.lhsBatch by decide),
    dif_pos (show (0 : Fin S5000x32.rank) ∈ dot_S5000x32_S32x16_S5000x16_1_0_0_1_n_n.lhsNonContracting by decide)]
  rfl

theorem mm_32_16_r1 (j : S5000x16.Idx) (c : dot_S5000x32_S32x16_S5000x16_1_0_0_1_n_n.contr.Idx) :
    (dot_S5000x32_S32x16_S5000x16_1_0_0_1_n_n.rhsIdx j c 1).val = (j 1).val := by
  unfold DotDims.rhsIdx
  rw [dif_neg (show ¬(1 : Fin S32x16.rank) ∈ dot_S5000x32_S32x16_S5000x16_1_0_0_1_n_n.rhsBatch by decide),
    dif_pos (show (1 : Fin S32x16.rank) ∈ dot_S5000x32_S32x16_S5000x16_1_0_0_1_n_n.rhsNonContracting by decide)]
  rfl

/-- A [5000,32] by [32,16] product into the zero accumulator, read at (p, q). -/
theorem mm_32_16 (l : FVec Ideal S5000x32 .bf16) (r : FVec Ideal S32x16 .bf16) (p : Fin 5000) (q : Fin 16) :
    matmul (F := Ideal) dot_S5000x32_S32x16_S5000x16_1_0_0_1_n_n none l r (constant (F := Ideal) S5000x16 .f32 0x00000000#32) (ix2 p q)
      = ∑ k : Fin 32, l (ix2 p k) * r (ix2 k q) := by
  simp only [matmul]
  rw [Ideal.matmul_constant_zero_apply,
    ← Equiv.sum_comp (contrEquiv1 dot_S5000x32_S32x16_S5000x16_1_0_0_1_n_n 32 rfl rfl).symm]
  refine Finset.sum_congr rfl fun k _ => ?_
  have hk := contrEquiv1_symm_val dot_S5000x32_S32x16_S5000x16_1_0_0_1_n_n 32 rfl rfl k
  have el : dot_S5000x32_S32x16_S5000x16_1_0_0_1_n_n.lhsIdx (ix2 p q)
      ((contrEquiv1 dot_S5000x32_S32x16_S5000x16_1_0_0_1_n_n 32 rfl rfl).symm k) = ix2 p k :=
    funext fun a => Fin.ext (by
      match a with
      | ⟨0, _⟩ => exact mm_32_16_l0 _ _
      | ⟨1, _⟩ => exact (dot_S5000x32_S32x16_S5000x16_1_0_0_1_n_n.lhsIdx_val_of_single rfl _ _).trans hk)
  have er : dot_S5000x32_S32x16_S5000x16_1_0_0_1_n_n.rhsIdx (ix2 p q)
      ((contrEquiv1 dot_S5000x32_S32x16_S5000x16_1_0_0_1_n_n 32 rfl rfl).symm k) = ix2 k q :=
    funext fun a => Fin.ext (by
      match a with
      | ⟨0, _⟩ => exact (dot_S5000x32_S32x16_S5000x16_1_0_0_1_n_n.rhsIdx_val_of_single rfl _ _).trans hk
      | ⟨1, _⟩ => exact mm_32_16_r1 _ _)
  rw [el, er]

theorem mm_16_2_l0 (j : S5000x2.Idx) (c : dot_S5000x16_S16x2_S5000x2_1_0_0_1_n_n.contr.Idx) :
    (dot_S5000x16_S16x2_S5000x2_1_0_0_1_n_n.lhsIdx j c 0).val = (j 0).val := by
  unfold DotDims.lhsIdx
  rw [dif_neg (show ¬(0 : Fin S5000x16.rank) ∈ dot_S5000x16_S16x2_S5000x2_1_0_0_1_n_n.lhsBatch by decide),
    dif_pos (show (0 : Fin S5000x16.rank) ∈ dot_S5000x16_S16x2_S5000x2_1_0_0_1_n_n.lhsNonContracting by decide)]
  rfl

theorem mm_16_2_r1 (j : S5000x2.Idx) (c : dot_S5000x16_S16x2_S5000x2_1_0_0_1_n_n.contr.Idx) :
    (dot_S5000x16_S16x2_S5000x2_1_0_0_1_n_n.rhsIdx j c 1).val = (j 1).val := by
  unfold DotDims.rhsIdx
  rw [dif_neg (show ¬(1 : Fin S16x2.rank) ∈ dot_S5000x16_S16x2_S5000x2_1_0_0_1_n_n.rhsBatch by decide),
    dif_pos (show (1 : Fin S16x2.rank) ∈ dot_S5000x16_S16x2_S5000x2_1_0_0_1_n_n.rhsNonContracting by decide)]
  rfl

/-- A [5000,16] by [16,2] product into the zero accumulator, read at (p, q). -/
theorem mm_16_2 (l : FVec Ideal S5000x16 .bf16) (r : FVec Ideal S16x2 .bf16) (p : Fin 5000) (q : Fin 2) :
    matmul (F := Ideal) dot_S5000x16_S16x2_S5000x2_1_0_0_1_n_n none l r (constant (F := Ideal) S5000x2 .f32 0x00000000#32) (ix2 p q)
      = ∑ k : Fin 16, l (ix2 p k) * r (ix2 k q) := by
  simp only [matmul]
  rw [Ideal.matmul_constant_zero_apply,
    ← Equiv.sum_comp (contrEquiv1 dot_S5000x16_S16x2_S5000x2_1_0_0_1_n_n 16 rfl rfl).symm]
  refine Finset.sum_congr rfl fun k _ => ?_
  have hk := contrEquiv1_symm_val dot_S5000x16_S16x2_S5000x2_1_0_0_1_n_n 16 rfl rfl k
  have el : dot_S5000x16_S16x2_S5000x2_1_0_0_1_n_n.lhsIdx (ix2 p q)
      ((contrEquiv1 dot_S5000x16_S16x2_S5000x2_1_0_0_1_n_n 16 rfl rfl).symm k) = ix2 p k :=
    funext fun a => Fin.ext (by
      match a with
      | ⟨0, _⟩ => exact mm_16_2_l0 _ _
      | ⟨1, _⟩ => exact (dot_S5000x16_S16x2_S5000x2_1_0_0_1_n_n.lhsIdx_val_of_single rfl _ _).trans hk)
  have er : dot_S5000x16_S16x2_S5000x2_1_0_0_1_n_n.rhsIdx (ix2 p q)
      ((contrEquiv1 dot_S5000x16_S16x2_S5000x2_1_0_0_1_n_n 16 rfl rfl).symm k) = ix2 k q :=
    funext fun a => Fin.ext (by
      match a with
      | ⟨0, _⟩ => exact (dot_S5000x16_S16x2_S5000x2_1_0_0_1_n_n.rhsIdx_val_of_single rfl _ _).trans hk
      | ⟨1, _⟩ => exact mm_16_2_r1 _ _)
  rw [el, er]

/-! ## Broadcasts read at an index -/

/-- An [a, 1] column broadcast to [a, b] reads, at (p, c), the column at row p. -/
theorem bcastCol {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length b cast to [1, b] and broadcast to [a, b] reads, at (p, c), the vector at c. -/
theorem bcastRow {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-! ## The first body -/

/-- The hidden block: relu of ((S times inv) WL + X WR) + b, row by row. -/
theorem pay_hid (x0 x2 : Vec Ideal S5000x64 .f32) (x4 : Vec Ideal S5000x1 .f32) (x9 x11 : Vec Ideal S64x64 .bf16)
    (x13 : Vec Ideal S64 .f32) :
    k0_pay1 (F := Ideal) x0 x2 x4 x9 x11 x13 = hidK (R := 5000) x0 x2 x4 x9 x11 x13 := by
  funext j
  obtain ⟨p, q, rfl⟩ : ∃ (p : Fin 5000) (q : Fin 64), j = ix2 p q := ⟨j 0, j 1, eq_ix2 j⟩
  unfold k0_pay1 hidK
  simp only [shapeCast_self]
  refine congrArg₂ max (congrArg₂ (· + ·) (congrArg₂ (· + ·) ?_ ?_) ?_) rfl
  · -- the aggregated rows, scaled by the column, times WL
    refine (mm_64_64 _ _ p q).trans (Finset.sum_congr rfl fun k _ => ?_)
    exact congrArg (· * x9 (ix2 k q)) (congrArg (x2 (ix2 p k) * ·) (bcastCol x4 _ p k))
  · -- the rows themselves times WR
    exact mm_64_64 _ _ p q
  · -- the bias row
    exact bcastRow x13 _ _ p q

/-- The projected block: the hidden block times W, row by row. -/
theorem pay_proj (x0 x2 : Vec Ideal S5000x64 .f32) (x4 : Vec Ideal S5000x1 .f32) (x9 x11 : Vec Ideal S64x64 .bf16)
    (x13 : Vec Ideal S64 .f32) (x24 : Vec Ideal S64x32 .bf16) :
    k0_pay2 (F := Ideal) x0 x2 x4 x9 x11 x13 x24 = projK (hidK (R := 5000) x0 x2 x4 x9 x11 x13) x24 := by
  funext j
  obtain ⟨p, q, rfl⟩ : ∃ (p : Fin 5000) (q : Fin 32), j = ix2 p q := ⟨j 0, j 1, eq_ix2 j⟩
  unfold k0_pay2 projK
  simp only [shapeCast_self]
  refine (mm_64_32 _ _ p q).trans (Finset.sum_congr rfl fun k _ => ?_)
  exact congrArg (· * x24 (ix2 k q)) (congrFun (pay_hid x0 x2 x4 x9 x11 x13) (ix2 p k))

/-! ## The second body -/

/-- The result block: the second layer relu ((P times inv + H WR) + b2), then the classifier
    relu (h2 WC1 + bc1) WC2 + bc2, row by row. -/
theorem pay_head (x0 : Vec Ideal S5000x64 .f32) (x3 : Vec Ideal S5000x32 .f32) (x5 : Vec Ideal S5000x1 .f32)
    (x9 : Vec Ideal S64x32 .bf16) (x11 : Vec Ideal S32 .f32) (x20 : Vec Ideal S32x16 .bf16) (x22 : Vec Ideal S16 .f32)
    (x30 : Vec Ideal S16x2 .bf16) (x32 : Vec Ideal S2 .f32) :
    k1_pay1 (F := Ideal) x0 x3 x5 x9 x11 x20 x22 x30 x32 = headK (R := 5000) x0 x3 x5 x9 x11 x20 x22 x30 x32 := by
  funext j
  obtain ⟨p, q, rfl⟩ : ∃ (p : Fin 5000) (q : Fin 2), j = ix2 p q := ⟨j 0, j 1, eq_ix2 j⟩
  unfold k1_pay1 headK tail
  simp only [shapeCast_self]
  -- the last product plus its bias row
  refine congrArg₂ (· + ·) ?_ (bcastRow x32 _ _ p q)
  refine (mm_16_2 _ _ p q).trans (Finset.sum_congr rfl fun k _ => ?_)
  refine congrArg (· * x30 (ix2 k q)) ?_
  -- the classifier's hidden entry (p, k)
  refine congrArg₂ max (congrArg₂ (· + ·) ?_ (bcastRow x22 _ _ p k)) rfl
  refine (mm_32_16 _ _ p k).trans (Finset.sum_congr rfl fun n _ => ?_)
  refine congrArg (· * x20 (ix2 n k)) ?_
  -- the second layer's entry (p, n)
  refine congrArg₂ max (congrArg₂ (· + ·) (congrArg₂ (· + ·) ?_ (mm_64_32 _ _ p n)) (bcastRow x11 _ _ p n)) rfl
  exact congrArg (x3 (ix2 p n) * ·) (bcastCol x5 _ p n)

end Cert.Sage
-- ==== Proof.Blocks0.lean ====
/-
  From blocks to the whole array, for the first kernel launch.

  The launch runs its body at 10 grid points; at point `t` the row-blocked windows hold rows
  `5000 t … 5000 t + 4999` of their arrays and the weight and bias windows hold their arrays whole.
  The body stores, into the two output windows, the first layer `hidK` of its input blocks and the
  projection `projK` of that.  Both are row-wise: the entry in row `r` reads row `r` of the
  row-blocked inputs and the weights whole, so the formula on the blocks at row `p` of block `t` is the
  formula on the whole arrays at row `5000 t + p`.  Hence what point `t` writes back is block `t` of ONE
  whole-array function; every row `r` lies in the block of point `r / 5000`, which writes back; so
  after the launch each output array holds that function of the arrays as the launch found them.
-/
import proofs.«156402_j7773890806311_2_alg».proof.Proof.Gen.KernelIdeal.Frame
import proofs.«156402_j7773890806311_2_alg».proof.Proof.Spec
import proofs.«156402_j7773890806311_2_alg».proof.Proof.Payloads
import Idealize.ShloMosaic.Lib.Pipeline.Value
import Idealize.ShloMosaic.Lib.ValueIdx

set_option maxRecDepth 16384

noncomputable section

open scoped BigOperators

namespace Cert.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable (V : (c : Dev nD) → (b : Ref sig .tc) → Buf (Elt Ideal) ((c : Thread nD τ).loc b))

namespace Blocks0

theorem zero2 : (![0, 0] : Fin 2 → Nat) = fun _ => 0 := funext fun a => by fin_cases a <;> rfl
theorem zero1 : (![0] : Fin 1 → Nat) = fun _ => 0 := funext fun a => by fin_cases a <;> rfl

/-! ## The two functions, entry by entry -/

/-- First layer, entry by entry: the entry at `j` of one instance and the entry at `i` of another agree as soon as the
    rows and columns the formula reads agree. -/
theorem hidK_congr {R R' : Nat} (Xb Sb : A2 R 64) (Ib : A2 R 1) (WLb WRb : A2 64 64) (Bb : A1 64)
    (X S : A2 R' 64) (I : A2 R' 1) (WL WR : A2 64 64) (B : A1 64)
    (j : (⟨2, ![R, 64]⟩ : Shape).Idx) (i : (⟨2, ![R', 64]⟩ : Shape).Idx)
    (hX : ∀ k : Fin 64, Xb (ix2 (j 0) k) = X (ix2 (i 0) k))
    (hS : ∀ k : Fin 64, Sb (ix2 (j 0) k) = S (ix2 (i 0) k))
    (hI : Ib (ix2 (j 0) 0) = I (ix2 (i 0) 0))
    (hWL : ∀ k : Fin 64, WLb (ix2 k (j 1)) = WL (ix2 k (i 1)))
    (hWR : ∀ k : Fin 64, WRb (ix2 k (j 1)) = WR (ix2 k (i 1)))
    (hB : Bb (ix1 (j 1)) = B (ix1 (i 1))) :
    hidK Xb Sb Ib WLb WRb Bb j = hidK X S I WL WR B i := by
  simp only [hidK, hX, hS, hI, hWL, hWR, hB]

/-- The projection, entry by entry, in the same way. -/
theorem projK_congr {R R' : Nat} (Hb : A2 R 64) (Wb : A2 64 32) (H : A2 R' 64) (W : A2 64 32)
    (j : (⟨2, ![R, 32]⟩ : Shape).Idx) (i : (⟨2, ![R', 32]⟩ : Shape).Idx)
    (hH : ∀ k : Fin 64, Hb (ix2 (j 0) k) = H (ix2 (i 0) k))
    (hW : ∀ k : Fin 64, Wb (ix2 k (j 1)) = W (ix2 k (i 1))) :
    projK Hb Wb j = projK H W i := by
  simp only [projK, hH, hW]

/-! ## The index maps, and each window's block as entries of its array -/

/-- The printed index maps over the grid: a row-blocked window's block index at point `t` is `(t, 0)`, a weight or
    bias window's is zero. -/
theorem index_maps0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_5.index t (0 : Fin 1) = 0 :=
  (by decide +kernel : ∀ t : Fin grid0.N, _)

/-- Window 0's block at point `t` is rows `5000 t … 5000 t + 4999` of the node features. -/
theorem iblk0_0_apply (c : Dev nD) (t : Fin cfg0.N) (x : S5000x64.Idx) (k : S50000x64.Idx)
    (hk0 : (k 0).val = 5000 * t.val + (x 0).val) (hk1 : (k 1).val = (x 1).val) :
    (iblk0 (F := Ideal) V c 0 t : Vec Ideal S5000x64 .f32) x = (V c (Pipeline.arrRef spec0 0) : S50000x64.Idx → EReal) k := by
  obtain ⟨e0, e1, -⟩ := index_maps0 t
  unfold iblk0
  rw [View.read_apply]
  show (V c (Pipeline.arrRef spec0 0) : S50000x64.Idx → EReal) _ = _
  congr 1
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 64 + 1 * (x 1).val = (k 1).val; rw [e1, hk1]; omega

/-- Window 1's block at point `t` is rows `5000 t … 5000 t + 4999` of the aggregated features. -/
theorem iblk0_1_apply (c : Dev nD) (t : Fin cfg0.N) (x : S5000x64.Idx) (k : S50000x64.Idx)
    (hk0 : (k 0).val = 5000 * t.val + (x 0).val) (hk1 : (k 1).val = (x 1).val) :
    (iblk0 (F := Ideal) V c 1 t : Vec Ideal S5000x64 .f32) x = (V c (Pipeline.arrRef spec0 1) : S50000x64.Idx → EReal) k := by
  obtain ⟨-, -, e0, e1, -⟩ := index_maps0 t
  unfold iblk0
  rw [View.read_apply]
  show (V c (Pipeline.arrRef spec0 1) : S50000x64.Idx → EReal) _ = _
  congr 1
  funext a
  apply Fin.ext
  match a with
  | ⟨0, _⟩ => show win0_1.index t (0 : Fin 2) * 5000 + 1 * (x 0).val = (k 0).val; rw [e0, hk0]; omega
  | ⟨1, _⟩ => show win0_1.index t (1 : Fin 2) * 64 + 1 * (x 1).val = (k 1).val; rw [e1, hk1]; omega

/-- Window 2's block at point `t` is rows `5000 t … 5000 t + 4999` of the reciprocal column. -/
theorem iblk0_2_apply (c : Dev nD) (t : Fin cfg0.N) (x : S5000x1.Idx) (k : S50000x1.Idx)
    (hk0 : (k 0).val = 5000 * t.val + (x 0).val) (hk1 : (k 1).val = (x 1).val) :
    (iblk0 (F := Ideal) V c 2 t : Vec Ideal S5000x1 .f32) x = (V c (Pipeline.arrRef spec0 2) : S50000x1.Idx → EReal) k := by
  obtain ⟨-, -, -, -, e0, e1, -⟩ := index_maps0 t
  unfold iblk0
  rw [View.read_apply]
  show (V c (Pipeline.arrRef spec0 2) : S50000x1.Idx → EReal) _ = _
  congr 1
  funext a
  apply Fin.ext
  match a with
  | ⟨0, _⟩ => show win0_2.index t (0 : Fin 2) * 5000 + 1 * (x 0).val = (k 0).val; rw [e0, hk0]; omega
  | ⟨1, _⟩ => show win0_2.index t (1 : Fin 2) * 1 + 1 * (x 1).val = (k 1).val; rw [e1, hk1]; omega

/-- Window 3's block at every point is the whole of the left weight matrix. -/
theorem iblk0_3_apply (c : Dev nD) (t : Fin cfg0.N) (x k : S64x64.Idx)
    (hk0 : (k 0).val = (x 0).val) (hk1 : (k 1).val = (x 1).val) :
    (iblk0 (F := Ideal) V c 3 t : Vec Ideal S64x64 .bf16) x = (V c (Pipeline.arrRef spec0 3) : S64x64.Idx → EReal) k := by
  obtain ⟨-, -, -, -, -, -, e0, e1, -⟩ := index_maps0 t
  unfold iblk0
  rw [View.read_apply]
  show (V c (Pipeline.arrRef spec0 3) : S64x64.Idx → EReal) _ = _
  congr 1
  funext a
  apply Fin.ext
  match a with
  | ⟨0, _⟩ => show win0_3.index t (0 : Fin 2) * 64 + 1 * (x 0).val = (k 0).val; rw [e0, hk0]; omega
  | ⟨1, _⟩ => show win0_3.index t (1 : Fin 2) * 64 + 1 * (x 1).val = (k 1).val; rw [e1, hk1]; omega

/-- Window 4's block at every point is the whole of the right weight matrix. -/
theorem iblk0_4_apply (c : Dev nD) (t : Fin cfg0.N) (x k : S64x64.Idx)
    (hk0 : (k 0).val = (x 0).val) (hk1 : (k 1).val = (x 1).val) :
    (iblk0 (F := Ideal) V c 4 t : Vec Ideal S64x64 .bf16) x = (V c (Pipeline.arrRef spec0 4) : S64x64.Idx → EReal) k := by
  obtain ⟨-, -, -, -, -, -, -, -, e0, e1, -⟩ := index_maps0 t
  unfold iblk0
  rw [View.read_apply]
  show (V c (Pipeline.arrRef spec0 4) : S64x64.Idx → EReal) _ = _
  congr 1
  funext a
  apply Fin.ext
  match a with
  | ⟨0, _⟩ => show win0_4.index t (0 : Fin 2) * 64 + 1 * (x 0).val = (k 0).val; rw [e0, hk0]; omega
  | ⟨1, _⟩ => show win0_4.index t (1 : Fin 2) * 64 + 1 * (x 1).val = (k 1).val; rw [e1, hk1]; omega

/-- Window 6's block at every point is the whole of the projection's weight matrix. -/
theorem iblk0_6_apply (c : Dev nD) (t : Fin cfg0.N) (x k : S64x32.Idx)
    (hk0 : (k 0).val = (x 0).val) (hk1 : (k 1).val = (x 1).val) :
    (iblk0 (F := Ideal) V c 6 t : Vec Ideal S64x32 .bf16) x = (V c (Pipeline.arrRef spec0 6) : S64x32.Idx → EReal) k := by
  obtain ⟨-, -, -, -, -, -, -, -, -, -, e0, e1, -⟩ := index_maps0 t
  unfold iblk0
  rw [View.read_apply]
  show (V c (Pipeline.arrRef spec0 6) : S64x32.Idx → EReal) _ = _
  congr 1
  funext a
  apply Fin.ext
  match a with
  | ⟨0, _⟩ => show win0_6.index t (0 : Fin 2) * 64 + 1 * (x 0).val = (k 0).val; rw [e0, hk0]; omega
  | ⟨1, _⟩ => show win0_6.index t (1 : Fin 2) * 32 + 1 * (x 1).val = (k 1).val; rw [e1, hk1]; omega

/-- Window 5's block at every point is the whole bias vector. -/
theorem iblk0_5_apply (c : Dev nD) (t : Fin cfg0.N) (x k : S64.Idx) (hk0 : (k 0).val = (x 0).val) :
    (iblk0 (F := Ideal) V c 5 t : Vec Ideal S64 .f32) x = (V c (Pipeline.arrRef spec0 5) : S64.Idx → EReal) k := by
  obtain ⟨-, -, -, -, -, -, -, -, -, -, -, -, -, -, -, -, e0⟩ := index_maps0 t
  unfold iblk0
  rw [View.read_apply]
  show (V c (Pipeline.arrRef spec0 5) : S64.Idx → EReal) _ = _
  congr 1
  funext a
  apply Fin.ext
  match a with
  | ⟨0, _⟩ => show win0_5.index t (0 : Fin 1) * 64 + 1 * (x 0).val = (k 0).val; rw [e0, hk0]; omega

/-! ## The hidden rows: output window 7 -/

/-- The hidden-layer formula at an entry of point `t`'s block, on the blocks, is the formula on the whole arrays at that
    entry's place in the array: the formula reads one row of the row-blocked arrays, and the weights whole. -/
theorem hid_block (c : Dev nD) (t : Fin cfg0.N) (j : S5000x64.Idx) (i : S50000x64.Idx)
    (h0 : (i 0).val = 5000 * t.val + (j 0).val) (h1 : (i 1).val = (j 1).val) :
    hidK (R := 5000) (iblk0 V c 0 t) (iblk0 V c 1 t) (iblk0 V c 2 t) (iblk0 V c 3 t) (iblk0 V c 4 t) (iblk0 V c 5 t) j
      = hidK (R := 50000) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) i :=
  hidK_congr (R := 5000) (R' := 50000) (iblk0 V c 0 t) (iblk0 V c 1 t) (iblk0 V c 2 t) (iblk0 V c 3 t) (iblk0 V c 4 t) (iblk0 V c 5 t)
    (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) j i
    (fun k => iblk0_0_apply V c t (ix2 (j 0) k) (ix2 (i 0) k) h0 rfl)
    (fun k => iblk0_1_apply V c t (ix2 (j 0) k) (ix2 (i 0) k) h0 rfl)
    (iblk0_2_apply V c t (ix2 (j 0) 0) (ix2 (i 0) 0) h0 rfl)
    (fun k => iblk0_3_apply V c t (ix2 k (j 1)) (ix2 k (i 1)) rfl h1)
    (fun k => iblk0_4_apply V c t (ix2 k (j 1)) (ix2 k (i 1)) rfl h1)
    (iblk0_5_apply V c t (ix1 (j 1)) (ix1 (i 1)) h1)

/-- What point `t` writes back to the hidden rows' array is block `t` of the whole-array function. -/
theorem flushed0_7_eq (c : Dev nD) (t : Fin cfg0.N) :
    (dat0 (F := Ideal) V c).flushed 7 t = ((cfg0.win 7).blk t).view.read (Elt Ideal)
      (hidK (R := 50000) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) := by
  show (cfg0.win 7).cut (grid0.coords t) ((dat0 V c).after 7 t) = _
  rw [after0_7]
  unfold out0_7
  rw [View.canon_unit_zero zero2]
  simp only [View.ld_unit_zero (S := S5000x64) zero2, View.ld_unit_zero (S := S5000x1) zero2,
    View.ld_unit_zero (S := S64x64) zero2, View.ld_unit_zero (S := S64) zero1]
  rw [pay_hid]
  obtain ⟨-, -, -, -, -, -, -, -, -, -, -, -, e0, e1, -⟩ := index_maps0 t
  funext j
  show hidK (R := 5000) (iblk0 V c 0 t) (iblk0 V c 1 t) (iblk0 V c 2 t) (iblk0 V c 3 t) (iblk0 V c 4 t) (iblk0 V c 5 t) j
      = hidK (R := 50000) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (((cfg0.win 7).blk t).view.emb j)
  refine hid_block V c t j (((cfg0.win 7).blk t).view.emb j) ?_ ?_
  · show win0_7.index t (0 : Fin 2) * 5000 + 1 * (j 0).val = 5000 * t.val + (j 0).val
    rw [e0]; omega
  · show win0_7.index t (1 : Fin 2) * 64 + 1 * (j 1).val = (j 1).val
    rw [e1]; omega

/-- An index of the hidden rows' array is in point `t`'s block iff each coordinate is in the block's range on its axis. -/
theorem mem_blk0_7 (t : Fin cfg0.N) (i : S50000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v28_0).slice (win0_7.rect t)).set ↔ _
  rw [View.set_slice_whole, Rect.mem_set_unit]
  exact Iff.rfl

/-- Every row `r` of the hidden rows' array is in the block of point `r / 5000`, which writes back. -/
theorem covered0_7 (i : S50000x64.Idx) :
    ∃ t : Fin cfg0.N, (cfg0.win 7).flush t = true ∧ i ∈ ((cfg0.win 7).blk t).view.set := by
  have hi0 : (i 0).val < 50000 := (i 0).isLt
  have hi1 : (i 1).val < 64 := (i 1).isLt
  have hN : cfg0.N = 10 := N_0
  have ht : (i 0).val / 5000 < cfg0.N := by rw [hN]; omega
  obtain ⟨-, -, -, -, -, -, -, -, -, -, -, -, e0, e1, -⟩ := index_maps0 ⟨(i 0).val / 5000, ht⟩
  refine ⟨⟨(i 0).val / 5000, ht⟩, flush0_7 _, ?_⟩
  rw [mem_blk0_7]
  intro a
  match a with
  | ⟨0, _⟩ =>
    show win0_7.index ⟨(i 0).val / 5000, ht⟩ (0 : Fin 2) * 5000 ≤ (i 0).val ∧ (i 0).val < win0_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_7.index ⟨(i 0).val / 5000, ht⟩ (1 : Fin 2) * 64 ≤ (i 1).val ∧ (i 1).val < win0_7.index ⟨(i 0).val / 5000, ht⟩ (1 : Fin 2) * 64 + 64
    rw [e1]; omega

/-! ## The projected rows: output window 8 -/

/-- What point `t` writes back to the projected rows' array is block `t` of the whole-array function. -/
theorem flushed0_8_eq (c : Dev nD) (t : Fin cfg0.N) :
    (dat0 (F := Ideal) V c).flushed 8 t = ((cfg0.win 8).blk t).view.read (Elt Ideal)
      (projK (hidK (R := 50000) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) (V c (Pipeline.arrRef spec0 6))) := by
  show (cfg0.win 8).cut (grid0.coords t) ((dat0 V c).after 8 t) = _
  rw [after0_8]
  unfold out0_8
  rw [View.canon_unit_zero zero2]
  simp only [View.ld_unit_zero (S := S5000x64) zero2, View.ld_unit_zero (S := S5000x1) zero2,
    View.ld_unit_zero (S := S64x64) zero2, View.ld_unit_zero (S := S64) zero1, View.ld_unit_zero (S := S64x32) zero2]
  rw [pay_proj]
  obtain ⟨-, -, -, -, -, -, -, -, -, -, -, -, -, -, e0, e1, -⟩ := index_maps0 t
  funext j
  show projK (hidK (R := 5000) (iblk0 V c 0 t) (iblk0 V c 1 t) (iblk0 V c 2 t) (iblk0 V c 3 t) (iblk0 V c 4 t) (iblk0 V c 5 t)) (iblk0 V c 6 t) j
      = projK (hidK (R := 50000) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) (V c (Pipeline.arrRef spec0 6)) (((cfg0.win 8).blk t).view.emb j)
  have h0 : ((((cfg0.win 8).blk t).view.emb j) 0).val = 5000 * t.val + (j 0).val := by
    show win0_8.index t (0 : Fin 2) * 5000 + 1 * (j 0).val = 5000 * t.val + (j 0).val
    rw [e0]; omega
  have h1 : ((((cfg0.win 8).blk t).view.emb j) 1).val = (j 1).val := by
    show win0_8.index t (1 : Fin 2) * 32 + 1 * (j 1).val = (j 1).val
    rw [e1]; omega
  exact projK_congr (R := 5000) (R' := 50000)
    (hidK (R := 5000) (iblk0 V c 0 t) (iblk0 V c 1 t) (iblk0 V c 2 t) (iblk0 V c 3 t) (iblk0 V c 4 t) (iblk0 V c 5 t)) (iblk0 V c 6 t)
    (hidK (R := 50000) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) (V c (Pipeline.arrRef spec0 6))
    j (((cfg0.win 8).blk t).view.emb j)
    (fun k => hid_block V c t (ix2 (j 0) k) (ix2 ((((cfg0.win 8).blk t).view.emb j) 0) k) h0 rfl)
    (fun k => iblk0_6_apply V c t (ix2 k (j 1)) (ix2 k ((((cfg0.win 8).blk t).view.emb j) 1)) rfl h1)

/-- An index of the projected rows' array is in point `t`'s block iff each coordinate is in the block's range on its axis. -/
theorem mem_blk0_8 (t : Fin cfg0.N) (i : S50000x32.Idx) :
    i ∈ ((cfg0.win 8).blk t).view.set ↔ ∀ a : Fin 2, win0_8.index t a * S5000x32.size a ≤ (i a).val ∧ (i a).val < win0_8.index t a * S5000x32.size a + S5000x32.size a := by
  show i ∈ ((View.whole main_v28_1).slice (win0_8.rect t)).set ↔ _
  rw [View.set_slice_whole, Rect.mem_set_unit]
  exact Iff.rfl

/-- Every row `r` of the projected rows' array is in the block of point `r / 5000`, which writes back. -/
theorem covered0_8 (i : S50000x32.Idx) :
    ∃ t : Fin cfg0.N, (cfg0.win 8).flush t = true ∧ i ∈ ((cfg0.win 8).blk t).view.set := by
  have hi0 : (i 0).val < 50000 := (i 0).isLt
  have hi1 : (i 1).val < 32 := (i 1).isLt
  have hN : cfg0.N = 10 := N_0
  have ht : (i 0).val / 5000 < cfg0.N := by rw [hN]; omega
  obtain ⟨-, -, -, -, -, -, -, -, -, -, -, -, -, -, e0, e1, -⟩ := index_maps0 ⟨(i 0).val / 5000, ht⟩
  refine ⟨⟨(i 0).val / 5000, ht⟩, flush0_8 _, ?_⟩
  rw [mem_blk0_8]
  intro a
  match a with
  | ⟨0, _⟩ =>
    show win0_8.index ⟨(i 0).val / 5000, ht⟩ (0 : Fin 2) * 5000 ≤ (i 0).val ∧ (i 0).val < win0_8.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_8.index ⟨(i 0).val / 5000, ht⟩ (1 : Fin 2) * 32 ≤ (i 1).val ∧ (i 1).val < win0_8.index ⟨(i 0).val / 5000, ht⟩ (1 : Fin 2) * 32 + 32
    rw [e1]; omega

end Blocks0

open Blocks0

/-! ## The two output arrays after the launch -/

/-- After the first launch the hidden rows' array holds the first layer of the region-entry arrays, whole. -/
theorem final0_7 (c : Dev nD) : (dat0 (F := Ideal) V c).arrAt 7 cfg0.N
    = hidK (R := 50000) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) :=
  (dat0 (F := Ideal) V c).arrAt_eq_of_cover 7 _ (fun t _ => flushed0_7_eq V c t) covered0_7

/-- After the first launch the projected rows' array holds the projection of the first layer of the region-entry
    arrays, whole. -/
theorem final0_8 (c : Dev nD) : (dat0 (F := Ideal) V c).arrAt 8 cfg0.N
    = projK (hidK (R := 50000) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) (V c (Pipeline.arrRef spec0 6)) :=
  (dat0 (F := Ideal) V c).arrAt_eq_of_cover 8 _ (fun t _ => flushed0_8_eq V c t) covered0_8

end Cert.Sage

end
-- ==== Proof.Blocks1.lean ====
import proofs.«156402_j7773890806311_2_alg».proof.Proof.Gen.KernelIdeal.Frame
import proofs.«156402_j7773890806311_2_alg».proof.Proof.Spec
import proofs.«156402_j7773890806311_2_alg».proof.Proof.Payloads
import Idealize.ShloMosaic.Lib.Pipeline.Value
import Idealize.ShloMosaic.Lib.ValueIdx

/-!
# From blocks to the whole array: the second kernel launch

The second kernel runs its body at 10 grid points on blocks of 5000 rows.  At point `t` the three row-blocked inputs
(hidden rows, aggregated projected rows, reciprocal column) are rows `5000 t … 5000 t + 4999` of their arrays, the six
weight and bias inputs are their whole arrays, and the output block is rows `5000 t … 5000 t + 4999` of the result.
The body's value on a block is `headK` of the blocks; `headK` is row-wise — entry `(r, n)` depends only on row `r`
of the row-blocked inputs and on the whole weight arrays — so what point `t` writes back is block `t` of `headK` of
the whole arrays.  Every row `r` lies in the block of point `r / 5000`, so the result array ends holding `headK` of
the region-entry arrays.
-/

set_option maxRecDepth 16384

noncomputable section

namespace Cert.Sage.B1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Sage Idealize.ShloMosaic.ValueIdx
open scoped BigOperators

variable (V : (c : Dev nD) → (b : Ref sig .tc) → Buf (Elt Ideal) ((c : Thread nD τ).loc b))

/-! ## Zero offsets, however spelt -/

theorem zero2 : (![0, 0] : Fin 2 → Nat) = fun _ => 0 := funext fun a => by fin_cases a <;> rfl
theorem zero1 : (![0] : Fin 1 → Nat) = fun _ => 0 := funext fun a => by fin_cases a <;> rfl

/-! ## The second layer and classifier is row-wise -/

/-- Entry `(p, n)` of `headK` on a block of 5000 rows is entry `(r, n)` of `headK` on all 50000 rows, as soon as
    row `p` of each row-blocked block is row `r` of its array (the weights are shared). -/
theorem headK_row (Hb : A2 5000 64) (Pb : A2 5000 32) (Ib : A2 5000 1) (H : A2 50000 64) (P : A2 50000 32) (I : A2 50000 1)
    (WR : A2 64 32) (B2 : A1 32) (WC1 : A2 32 16) (BC1 : A1 16) (WC2 : A2 16 2) (BC2 : A1 2)
    (p : Fin 5000) (r : Fin 50000) (n : Fin 2)
    (hH : ∀ k : Fin 64, Hb (ix2 p k) = H (ix2 r k)) (hP : ∀ k : Fin 32, Pb (ix2 p k) = P (ix2 r k))
    (hI : Ib (ix2 p (0 : Fin 1)) = I (ix2 r (0 : Fin 1))) :
    headK (R := 5000) Hb Pb Ib WR B2 WC1 BC1 WC2 BC2 (ix2 p n) = headK (R := 50000) H P I WR B2 WC1 BC1 WC2 BC2 (ix2 r n) := by
  unfold headK tail
  show (∑ k : Fin 16, max ((∑ k' : Fin 32,
        max (((Pb (ix2 p k') * Ib (ix2 p 0)) + ∑ k'' : Fin 64, Hb (ix2 p k'') * WR (ix2 k'' k')) + B2 (ix1 k')) Z
          * WC1 (ix2 k' k)) + BC1 (ix1 k)) Z * WC2 (ix2 k n)) + BC2 (ix1 n)
      = (∑ k : Fin 16, max ((∑ k' : Fin 32,
        max (((P (ix2 r k') * I (ix2 r 0)) + ∑ k'' : Fin 64, H (ix2 r k'') * WR (ix2 k'' k')) + B2 (ix1 k')) Z
          * WC1 (ix2 k' k)) + BC1 (ix1 k)) Z * WC2 (ix2 k n)) + BC2 (ix1 n)
  simp only [hH, hP, hI]

/-! ## The printed index maps over the grid -/

/-- Decided over the 10 grid points: the row-blocked windows (inputs 0, 1, 2 and the output 9) are at block `(t, 0)`,
    the weight and bias windows at block `0`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = t.val ∧ win1_9.index t (1 : Fin 2) = 0 :=
  (by decide +kernel : ∀ t : Fin grid1.N, _)

/-! ## Each input block, read off its array -/

/-- Row `p` of the block of hidden rows at point `t` is row `5000 t + p` of the array. -/
theorem blk0_apply (c : Dev nD) (t : Fin cfg1.N) (x : S5000x64.Idx) (k : S50000x64.Idx)
    (hk0 : (k 0).val = 5000 * t.val + (x 0).val) (hk1 : (k 1).val = (x 1).val) :
    (iblk1 V c 0 t : Vec Ideal S5000x64 .f32) x = (V c (Pipeline.arrRef spec1 0) : S50000x64.Idx → Elt Ideal .f32) k := by
  obtain ⟨h0, h1, -⟩ := idx_facts t
  unfold iblk1
  rw [View.read_apply]
  show (V c (Pipeline.arrRef spec1 0) : S50000x64.Idx → Elt Ideal .f32) _ = _
  refine congrArg (V c (Pipeline.arrRef spec1 0) : S50000x64.Idx → Elt Ideal .f32) ?_
  funext a
  apply Fin.ext
  match a with
  | ⟨0, _⟩ => show win1_0.index t (0 : Fin 2) * 5000 + 1 * (x 0).val = (k 0).val; rw [h0, hk0]; omega
  | ⟨1, _⟩ => show win1_0.index t (1 : Fin 2) * 64 + 1 * (x 1).val = (k 1).val; rw [h1, hk1]; omega

/-- Row `p` of the block of aggregated projected rows at point `t` is row `5000 t + p` of the array. -/
theorem blk1_apply (c : Dev nD) (t : Fin cfg1.N) (x : S5000x32.Idx) (k : S50000x32.Idx)
    (hk0 : (k 0).val = 5000 * t.val + (x 0).val) (hk1 : (k 1).val = (x 1).val) :
    (iblk1 V c 1 t : Vec Ideal S5000x32 .f32) x = (V c (Pipeline.arrRef spec1 1) : S50000x32.Idx → Elt Ideal .f32) k := by
  obtain ⟨-, -, h0, h1, -⟩ := idx_facts t
  unfold iblk1
  rw [View.read_apply]
  show (V c (Pipeline.arrRef spec1 1) : S50000x32.Idx → Elt Ideal .f32) _ = _
  refine congrArg (V c (Pipeline.arrRef spec1 1) : S50000x32.Idx → Elt Ideal .f32) ?_
  funext a
  apply Fin.ext
  match a with
  | ⟨0, _⟩ => show win1_1.index t (0 : Fin 2) * 5000 + 1 * (x 0).val = (k 0).val; rw [h0, hk0]; omega
  | ⟨1, _⟩ => show win1_1.index t (1 : Fin 2) * 32 + 1 * (x 1).val = (k 1).val; rw [h1, hk1]; omega

/-- Row `p` of the block of the reciprocal column at point `t` is row `5000 t + p` of the array. -/
theorem blk2_apply (c : Dev nD) (t : Fin cfg1.N) (x : S5000x1.Idx) (k : S50000x1.Idx)
    (hk0 : (k 0).val = 5000 * t.val + (x 0).val) (hk1 : (k 1).val = (x 1).val) :
    (iblk1 V c 2 t : Vec Ideal S5000x1 .f32) x = (V c (Pipeline.arrRef spec1 2) : S50000x1.Idx → Elt Ideal .f32) k := by
  obtain ⟨-, -, -, -, h0, h1, -⟩ := idx_facts t
  unfold iblk1
  rw [View.read_apply]
  show (V c (Pipeline.arrRef spec1 2) : S50000x1.Idx → Elt Ideal .f32) _ = _
  refine congrArg (V c (Pipeline.arrRef spec1 2) : S50000x1.Idx → Elt Ideal .f32) ?_
  funext a
  apply Fin.ext
  match a with
  | ⟨0, _⟩ => show win1_2.index t (0 : Fin 2) * 5000 + 1 * (x 0).val = (k 0).val; rw [h0, hk0]; omega
  | ⟨1, _⟩ => show win1_2.index t (1 : Fin 2) * 1 + 1 * (x 1).val = (k 1).val; rw [h1, hk1]; omega

/-! ## The weight and bias blocks are their whole arrays -/

/-- The block of the second layer's root weights is the whole array at every point. -/
theorem blk3_eq (c : Dev nD) (t : Fin cfg1.N) :
    (iblk1 V c 3 t : Vec Ideal S64x32 .bf16) = (V c (Pipeline.arrRef spec1 3) : S64x32.Idx → Elt Ideal .bf16) := by
  obtain ⟨e00, e01, e10, e11, e20, e21, e30, e31, e40, e50, e51, e60, e70, e71, e80, e90, e91⟩ := idx_facts t
  funext x
  unfold iblk1
  rw [View.read_apply]
  show (V c (Pipeline.arrRef spec1 3) : S64x32.Idx → Elt Ideal .bf16) _ = _
  refine congrArg (V c (Pipeline.arrRef spec1 3) : S64x32.Idx → Elt Ideal .bf16) ?_
  funext a
  apply Fin.ext
  match a with
  | ⟨0, _⟩ => show win1_3.index t (0 : Fin 2) * 64 + 1 * (x 0).val = (x 0).val; rw [e30]; omega
  | ⟨1, _⟩ => show win1_3.index t (1 : Fin 2) * 32 + 1 * (x 1).val = (x 1).val; rw [e31]; omega

/-- The block of the second layer's bias is the whole array at every point. -/
theorem blk4_eq (c : Dev nD) (t : Fin cfg1.N) :
    (iblk1 V c 4 t : Vec Ideal S32 .f32) = (V c (Pipeline.arrRef spec1 4) : S32.Idx → Elt Ideal .f32) := by
  obtain ⟨e00, e01, e10, e11, e20, e21, e30, e31, e40, e50, e51, e60, e70, e71, e80, e90, e91⟩ := idx_facts t
  funext x
  unfold iblk1
  rw [View.read_apply]
  show (V c (Pipeline.arrRef spec1 4) : S32.Idx → Elt Ideal .f32) _ = _
  refine congrArg (V c (Pipeline.arrRef spec1 4) : S32.Idx → Elt Ideal .f32) ?_
  funext a
  apply Fin.ext
  match a with
  | ⟨0, _⟩ => show win1_4.index t (0 : Fin 1) * 32 + 1 * (x 0).val = (x 0).val; rw [e40]; omega

/-- The block of the classifier's first weights is the whole array at every point. -/
theorem blk5_eq (c : Dev nD) (t : Fin cfg1.N) :
    (iblk1 V c 5 t : Vec Ideal S32x16 .bf16) = (V c (Pipeline.arrRef spec1 5) : S32x16.Idx → Elt Ideal .bf16) := by
  obtain ⟨e00, e01, e10, e11, e20, e21, e30, e31, e40, e50, e51, e60, e70, e71, e80, e90, e91⟩ := idx_facts t
  funext x
  unfold iblk1
  rw [View.read_apply]
  show (V c (Pipeline.arrRef spec1 5) : S32x16.Idx → Elt Ideal .bf16) _ = _
  refine congrArg (V c (Pipeline.arrRef spec1 5) : S32x16.Idx → Elt Ideal .bf16) ?_
  funext a
  apply Fin.ext
  match a with
  | ⟨0, _⟩ => show win1_5.index t (0 : Fin 2) * 32 + 1 * (x 0).val = (x 0).val; rw [e50]; omega
  | ⟨1, _⟩ => show win1_5.index t (1 : Fin 2) * 16 + 1 * (x 1).val = (x 1).val; rw [e51]; omega

/-- The block of the classifier's first bias is the whole array at every point. -/
theorem blk6_eq (c : Dev nD) (t : Fin cfg1.N) :
    (iblk1 V c 6 t : Vec Ideal S16 .f32) = (V c (Pipeline.arrRef spec1 6) : S16.Idx → Elt Ideal .f32) := by
  obtain ⟨e00, e01, e10, e11, e20, e21, e30, e31, e40, e50, e51, e60, e70, e71, e80, e90, e91⟩ := idx_facts t
  funext x
  unfold iblk1
  rw [View.read_apply]
  show (V c (Pipeline.arrRef spec1 6) : S16.Idx → Elt Ideal .f32) _ = _
  refine congrArg (V c (Pipeline.arrRef spec1 6) : S16.Idx → Elt Ideal .f32) ?_
  funext a
  apply Fin.ext
  match a with
  | ⟨0, _⟩ => show win1_6.index t (0 : Fin 1) * 16 + 1 * (x 0).val = (x 0).val; rw [e60]; omega

/-- The block of the classifier's second weights is the whole array at every point. -/
theorem blk7_eq (c : Dev nD) (t : Fin cfg1.N) :
    (iblk1 V c 7 t : Vec Ideal S16x2 .bf16) = (V c (Pipeline.arrRef spec1 7) : S16x2.Idx → Elt Ideal .bf16) := by
  obtain ⟨e00, e01, e10, e11, e20, e21, e30, e31, e40, e50, e51, e60, e70, e71, e80, e90, e91⟩ := idx_facts t
  funext x
  unfold iblk1
  rw [View.read_apply]
  show (V c (Pipeline.arrRef spec1 7) : S16x2.Idx → Elt Ideal .bf16) _ = _
  refine congrArg (V c (Pipeline.arrRef spec1 7) : S16x2.Idx → Elt Ideal .bf16) ?_
  funext a
  apply Fin.ext
  match a with
  | ⟨0, _⟩ => show win1_7.index t (0 : Fin 2) * 16 + 1 * (x 0).val = (x 0).val; rw [e70]; omega
  | ⟨1, _⟩ => show win1_7.index t (1 : Fin 2) * 2 + 1 * (x 1).val = (x 1).val; rw [e71]; omega

/-- The block of the classifier's second bias is the whole array at every point. -/
theorem blk8_eq (c : Dev nD) (t : Fin cfg1.N) :
    (iblk1 V c 8 t : Vec Ideal S2 .f32) = (V c (Pipeline.arrRef spec1 8) : S2.Idx → Elt Ideal .f32) := by
  obtain ⟨e00, e01, e10, e11, e20, e21, e30, e31, e40, e50, e51, e60, e70, e71, e80, e90, e91⟩ := idx_facts t
  funext x
  unfold iblk1
  rw [View.read_apply]
  show (V c (Pipeline.arrRef spec1 8) : S2.Idx → Elt Ideal .f32) _ = _
  refine congrArg (V c (Pipeline.arrRef spec1 8) : S2.Idx → Elt Ideal .f32) ?_
  funext a
  apply Fin.ext
  match a with
  | ⟨0, _⟩ => show win1_8.index t (0 : Fin 1) * 2 + 1 * (x 0).val = (x 0).val; rw [e80]; omega

/-! ## A block of the whole-array function is the function of the blocks -/

/-- `headK` on blocks that are rows `5000 t …` of the row-blocked arrays, at an index of the block, is `headK` on the
    arrays at the index 5000 t rows further down. -/
theorem headK_block (t : Nat) (Hb : A2 5000 64) (Pb : A2 5000 32) (Ib : A2 5000 1) (H : A2 50000 64) (P : A2 50000 32)
    (I : A2 50000 1) (WR : A2 64 32) (B2 : A1 32) (WC1 : A2 32 16) (BC1 : A1 16) (WC2 : A2 16 2) (BC2 : A1 2)
    (hH : ∀ (x : S5000x64.Idx) (k : S50000x64.Idx), (k 0).val = 5000 * t + (x 0).val → (k 1).val = (x 1).val → Hb x = H k)
    (hP : ∀ (x : S5000x32.Idx) (k : S50000x32.Idx), (k 0).val = 5000 * t + (x 0).val → (k 1).val = (x 1).val → Pb x = P k)
    (hI : ∀ (x : S5000x1.Idx) (k : S50000x1.Idx), (k 0).val = 5000 * t + (x 0).val → (k 1).val = (x 1).val → Ib x = I k)
    (j : S5000x2.Idx) (i : S50000x2.Idx) (hi0 : (i 0).val = 5000 * t + (j 0).val) (hi1 : (i 1).val = (j 1).val) :
    headK (R := 5000) Hb Pb Ib WR B2 WC1 BC1 WC2 BC2 j = headK (R := 50000) H P I WR B2 WC1 BC1 WC2 BC2 i := by
  obtain ⟨p, n, rfl⟩ : ∃ (p : Fin 5000) (n : Fin 2), j = ix2 p n := ⟨j 0, j 1, eq_ix2 j⟩
  obtain ⟨r, n', rfl⟩ : ∃ (r : Fin 50000) (n' : Fin 2), i = ix2 r n' := ⟨i 0, i 1, eq_ix2 i⟩
  have hr : r.val = 5000 * t + p.val := hi0
  obtain rfl : n' = n := Fin.ext hi1
  exact headK_row Hb Pb Ib H P I WR B2 WC1 BC1 WC2 BC2 p r n'
    (fun k => hH (ix2 p k) (ix2 r k) hr rfl) (fun k => hP (ix2 p k) (ix2 r k) hr rfl)
    (hI (ix2 p (0 : Fin 1)) (ix2 r (0 : Fin 1)) hr rfl)

/-! ## What a point writes back -/

/-- The whole-array result: `headK` of the nine arrays as the launch finds them. -/
abbrev result (c : Dev nD) : S50000x2.Idx → Elt Ideal .f32 :=
  headK (R := 50000) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8))

/-- Point `t` writes back block `t` of the whole-array result. -/
theorem flushed_eq (c : Dev nD) (t : Fin cfg1.N) :
    (dat1 (F := Ideal) V c).flushed 9 t = ((cfg1.win 9).blk t).view.read (Elt Ideal) (result V c) := by
  show (cfg1.win 9).cut (grid1.coords t) ((dat1 (F := Ideal) V c).after 9 t) = _
  rw [after1_9]
  unfold out1_9
  rw [View.canon_unit_zero zero2]
  simp only [View.ld_unit_zero (S := S5000x64) zero2, View.ld_unit_zero (S := S5000x32) zero2,
    View.ld_unit_zero (S := S5000x1) zero2, View.ld_unit_zero (S := S64x32) zero2, View.ld_unit_zero (S := S32) zero1,
    View.ld_unit_zero (S := S32x16) zero2, View.ld_unit_zero (S := S16) zero1, View.ld_unit_zero (S := S16x2) zero2,
    View.ld_unit_zero (S := S2) zero1]
  rw [pay_head (iblk1 V c 0 t) (iblk1 V c 1 t) (iblk1 V c 2 t) (iblk1 V c 3 t) (iblk1 V c 4 t) (iblk1 V c 5 t)
    (iblk1 V c 6 t) (iblk1 V c 7 t) (iblk1 V c 8 t)]
  rw [blk3_eq V c t, blk4_eq V c t, blk5_eq V c t, blk6_eq V c t, blk7_eq V c t, blk8_eq V c t]
  obtain ⟨e00, e01, e10, e11, e20, e21, e30, e31, e40, e50, e51, e60, e70, e71, e80, e90, e91⟩ := idx_facts t
  funext j
  show headK (R := 5000) (iblk1 V c 0 t) (iblk1 V c 1 t) (iblk1 V c 2 t) (V c (Pipeline.arrRef spec1 3))
      (V c (Pipeline.arrRef spec1 4)) (V c (Pipeline.arrRef spec1 5)) (V c (Pipeline.arrRef spec1 6))
      (V c (Pipeline.arrRef spec1 7)) (V c (Pipeline.arrRef spec1 8)) j
    = result V c (((cfg1.win 9).blk t).view.emb j)
  refine headK_block t.val _ _ _ _ _ _ _ _ _ _ _ _ (fun x k h0 h1 => blk0_apply V c t x k h0 h1)
    (fun x k h0 h1 => blk1_apply V c t x k h0 h1) (fun x k h0 h1 => blk2_apply V c t x k h0 h1) j _ ?_ ?_
  · show win1_9.index t (0 : Fin 2) * 5000 + 1 * (j 0).val = 5000 * t.val + (j 0).val
    rw [e90]; omega
  · show win1_9.index t (1 : Fin 2) * 2 + 1 * (j 1).val = (j 1).val
    rw [e91]; omega

/-! ## The blocks cover the array -/

/-- An index of the result array is in point `t`'s block iff each coordinate is in the block's range on its axis. -/
theorem mem_blk (t : Fin cfg1.N) (i : S50000x2.Idx) :
    i ∈ ((cfg1.win 9).blk t).view.set ↔ ∀ a : Fin 2, win1_9.index t a * S5000x2.size a ≤ (i a).val
      ∧ (i a).val < win1_9.index t a * S5000x2.size a + S5000x2.size a := by
  show i ∈ ((View.whole main_v43).slice (win1_9.rect t)).set ↔ _
  rw [View.set_slice_whole, Rect.mem_set_unit]
  exact Iff.rfl

/-- Row `r` of the result is in the block of point `r / 5000`. -/
theorem covered (i : S50000x2.Idx) :
    ∃ t : Fin cfg1.N, (cfg1.win 9).flush t = true ∧ i ∈ ((cfg1.win 9).blk t).view.set := by
  have hi0 : (i 0).val < 50000 := (i 0).isLt
  have hi1 : (i 1).val < 2 := (i 1).isLt
  have hN : grid1.N = 10 := N_1
  have ht : (i 0).val / 5000 < grid1.N := by rw [hN]; omega
  let t : Fin cfg1.N := ⟨(i 0).val / 5000, ht⟩
  obtain ⟨e00, e01, e10, e11, e20, e21, e30, e31, e40, e50, e51, e60, e70, e71, e80, e90, e91⟩ := idx_facts t
  have q0 : win1_9.index t (0 : Fin 2) = (i 0).val / 5000 := e90
  refine ⟨t, flush1_9 t, ?_⟩
  rw [mem_blk]
  intro a
  match a with
  | ⟨0, _⟩ =>
    show win1_9.index t (0 : Fin 2) * 5000 ≤ (i 0).val ∧ (i 0).val < win1_9.index t (0 : Fin 2) * 5000 + 5000
    rw [q0]; omega
  | ⟨1, _⟩ =>
    show win1_9.index t (1 : Fin 2) * 2 ≤ (i 1).val ∧ (i 1).val < win1_9.index t (1 : Fin 2) * 2 + 2
    rw [e91]; omega

end Cert.Sage.B1

namespace Cert.Sage

open Idealize.ShloMosaic Idealize.ShloMosaic.TcCoe Idealize.SL.Sem
open Idealize.ShloMosaic.Pipeline (Dat)
open Cert.KernelIdeal Cert.KernelIdeal.Gen

/-- After the second kernel's run its output array holds `headK` of the nine arrays as the launch found them. -/
theorem final1_9 (V : (c : Dev nD) → (b : Ref sig .tc) → Buf (Elt Ideal) ((c : Thread nD τ).loc b)) (c : Dev nD) :
    (dat1 (F := Ideal) V c).arrAt 9 cfg1.N
      = headK (R := 50000) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) :=
  (dat1 (F := Ideal) V c).arrAt_eq_of_cover 9 (B1.result V c) (fun t _ => B1.flushed_eq V c t) (B1.covered)

end Cert.Sage

end
-- ==== Proof.KernelValue.lean ====
/-
  The idealized kernel's result array is `kerOut` of the argument arrays.

  The first launch leaves, block by block, the hidden rows `hidK` of (features, aggregated features, reciprocal
  counts, first-layer weights) and their projection `projK` by the second layer's left weights; the host then
  aggregates the projected rows; the second launch leaves `headK` of the hidden rows, the aggregated
  projections, the reciprocal counts and the remaining weights.  Composing the three whole-array statements
  with what the host operations compute gives the result buffer's final contents.
-/
import proofs.«156402_j7773890806311_2_alg».proof.Proof.KernelRun
import proofs.«156402_j7773890806311_2_alg».proof.Proof.KernelHost
import proofs.«156402_j7773890806311_2_alg».proof.Proof.Blocks0
import proofs.«156402_j7773890806311_2_alg».proof.Proof.Blocks1

set_option maxRecDepth 16384

noncomputable section

namespace Cert.KernelIdeal.Named

open Cert.KernelIdeal Cert.KernelIdeal.Gen Cert.Sage
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The aggregated features. -/
abbrev aS (c : Dev nD) : A2 50000 64 :=
  agg 64 (by decide) (by decide) (dstRows (aE m c)) (srcRows (aE m c)) (aX m c)
/-- The hidden rows of the first layer, in the kernel's order of operations. -/
abbrev aH (c : Dev nD) : A2 50000 64 :=
  hidK (R := 50000) (aX m c) (aS m c) (invCol (dstRows (aE m c))) (aW1L m c) (aW1R m c) (aB1 m c)

/-- After the first launch its first result array holds the hidden rows. -/
theorem W2_hidden (c : Dev nD) : W2 m ρ c (Proc.devRef .tc main_v28_0) = aH m c := by
  refine (W2_arr m ρ c 7).trans ?_
  refine (final0_7 (V1 m ρ) c).trans ?_
  show hidK (R := 50000) (V1 m ρ c main_arg0) (V1 m ρ c main_v24) (V1 m ρ c main_v12) (V1 m ρ c main_v25)
      (V1 m ρ c main_v26) (V1 m ρ c main_arg4) = _
  rw [entry0_0, entry0_1, entry0_2, entry0_3, entry0_4, entry0_5]

/-- After the first launch its second result array holds the projected hidden rows. -/
theorem W2_projected (c : Dev nD) : W2 m ρ c (Proc.devRef .tc main_v28_1) = projK (aH m c) (aW2L m c) := by
  refine (W2_arr m ρ c 8).trans ?_
  refine (final0_8 (V1 m ρ) c).trans ?_
  show projK (hidK (R := 50000) (V1 m ρ c main_arg0) (V1 m ρ c main_v24) (V1 m ρ c main_v12) (V1 m ρ c main_v25)
      (V1 m ρ c main_v26) (V1 m ρ c main_arg4)) (V1 m ρ c main_v27) = _
  rw [entry0_0, entry0_1, entry0_2, entry0_3, entry0_4, entry0_5, entry0_6]

/-- After the second launch the result array holds the kernel's function of the arguments. -/
theorem W4_result (c : Dev nD) :
    W4 m ρ c (Proc.devRef .tc main_v43)
      = kerOut (dstRows (aE m c)) (srcRows (aE m c)) (aX m c) (aW1L m c) (aW1R m c) (aB1 m c) (aW2L m c) (aW2R m c)
          (aB2 m c) (aWC1 m c) (aBC1 m c) (aWC2 m c) (aBC2 m c) := by
  refine (W4_arr m ρ c 9).trans ?_
  refine (final1_9 (V3 m ρ) c).trans ?_
  show headK (R := 50000) (V3 m ρ c main_v28_0) (V3 m ρ c main_v39) (V3 m ρ c main_v12) (V3 m ρ c main_v40)
      (V3 m ρ c main_arg7) (V3 m ρ c main_v41) (V3 m ρ c main_arg9) (V3 m ρ c main_v42) (V3 m ρ c main_arg11) = _
  rw [entry1_0, entry1_1, entry1_2, entry1_3, entry1_4, entry1_5, entry1_6, entry1_7, entry1_8, W2_hidden, W2_projected]
  rfl

/-- THE KERNEL'S RUN: every weakly fair execution terminates, nothing faulting, with the result array at `kerOut` of the
    argument arrays and every argument array as launched. -/
theorem run_value : θ_run (defs (F := Ideal)) (onTc (τ := τ) (main (F := Ideal))) ⟨m, fun _ => 0, ρ⟩ (fun r => ∀ c : Dev nD,
      r.2.mem ((c.tc : Thread nD τ).loc main_v43)
        = kerOut (dstRows (aE m c)) (srcRows (aE m c)) (aX m c) (aW1L m c) (aW1R m c) (aB1 m c) (aW2L m c) (aW2R m c)
            (aB2 m c) (aWC1 m c) (aBC1 m c) (aWC2 m c) (aBC2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W4_result m ρ c), (h c).2⟩) (run_named m ρ)

end Cert.KernelIdeal.Named

end
-- ==== Proof.RefTail.lean ====
/-
  The classifier at the end of the reference, read at an index.  Whatever the second layer's rows are, the last four
  stages of the reference compute, at (p, q), the sum over k of relu (row p times column k of WC1, plus bc1 k) times
  WC2 (k, q), plus bc2 q: the classifier of the specification applied to those rows.
-/
import proofs.«156402_j7773890806311_2_alg».proof.Proof.Gen.ReferenceIdeal.Read
import proofs.«156402_j7773890806311_2_alg».proof.Proof.Spec
import Idealize.ShloMosaic.Lib.ValueIdx
import Idealize.ShloMosaic.PureOps.Ideal.Laws

noncomputable section

open scoped BigOperators

namespace Cert.Sage

open Cert.ReferenceIdeal Cert.ReferenceIdeal.Gen Cert.ReferenceIdeal.Read Idealize.ShloMosaic Idealize.ShloMosaic.ValueIdx

/-- The reference's result is the classifier of the specification applied to its second-layer rows h2. -/
theorem ref_tail (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 : (⟨S64, .f32⟩ : BufTy).Contents (Elt Ideal))
    (x5 x6 : (⟨S64x32, .f32⟩ : BufTy).Contents (Elt Ideal)) (x7 : (⟨S32, .f32⟩ : BufTy).Contents (Elt Ideal))
    (x8 : (⟨S32x16, .f32⟩ : BufTy).Contents (Elt Ideal)) (x9 : (⟨S16, .f32⟩ : BufTy).Contents (Elt Ideal))
    (x10 : (⟨S16x2, .f32⟩ : BufTy).Contents (Elt Ideal)) (x11 : (⟨S2, .f32⟩ : BufTy).Contents (Elt Ideal))
    (h2 : Fin 50000 → Fin 32 → EReal)
    (hh2 : ∀ (r : Fin 50000) (n : Fin 32), val_main_v55 (F := Ideal) x0 x1 x2 x3 x4 x5 x6 x7 (ix2 r n) = h2 r n) :
    val_main_v64 (F := Ideal) x0 x1 x2 x3 x4 x5 x6 x7 x8 x9 x10 x11 = tail (R := 50000) h2 x8 x9 x10 x11 := by
  funext j
  obtain ⟨p, q, rfl⟩ : ∃ (p : Fin 50000) (q : Fin 2), j = ix2 p q := ⟨j 0, j 1, eq_ix2 j⟩
  unfold tail
  refine (val_main_v64_apply x0 x1 x2 x3 x4 x5 x6 x7 x8 x9 x10 x11 (ix2 p q)).trans (congrArg₂ (· + ·) ?_ ?_)
  · -- the last product
    refine (val_main_v61_apply x0 x1 x2 x3 x4 x5 x6 x7 x8 x9 x10 (ix2 p q)).trans (Finset.sum_congr rfl fun k _ => ?_)
    have e1 : lidx_main_v61 (ix2 p q) k = ix2 p k :=
      funext fun a => Fin.ext (by match a with | ⟨0, _⟩ => rfl | ⟨1, _⟩ => rfl)
    have e2 : ridx_main_v61 (ix2 p q) k = ix2 k q :=
      funext fun a => Fin.ext (by match a with | ⟨0, _⟩ => rfl | ⟨1, _⟩ => rfl)
    rw [e1, e2]
    refine congrArg (· * x10 (ix2 k q)) ?_
    -- the classifier's hidden entry (p, k): relu of the product plus the bias
    refine (val_main_v60_apply x0 x1 x2 x3 x4 x5 x6 x7 x8 x9 (ix2 p k)).trans (congrArg₂ max ?_ ?_)
    · refine (val_main_v59_apply x0 x1 x2 x3 x4 x5 x6 x7 x8 x9 (ix2 p k)).trans (congrArg₂ (· + ·) ?_ ?_)
      · refine (val_main_v56_apply x0 x1 x2 x3 x4 x5 x6 x7 x8 (ix2 p k)).trans (Finset.sum_congr rfl fun n _ => ?_)
        have e3 : lidx_main_v56 (ix2 p k) n = ix2 p n :=
          funext fun a => Fin.ext (by match a with | ⟨0, _⟩ => rfl | ⟨1, _⟩ => rfl)
        have e4 : ridx_main_v56 (ix2 p k) n = ix2 n k :=
          funext fun a => Fin.ext (by match a with | ⟨0, _⟩ => rfl | ⟨1, _⟩ => rfl)
        rw [e3, e4, hh2 p n]
      · -- the bias bc1, broadcast along the rows
        refine (val_main_v58_apply x9 (ix2 p k)).trans ((val_main_v57_apply x9 _).trans (congrArg x9 ?_))
        exact funext fun a => Fin.ext (by match a with | ⟨0, _⟩ => rfl)
    · -- the zero of the relu
      exact (val_main_call2_v0_apply (F := Ideal) (ix2 p k)).trans rfl
  · -- the bias bc2, broadcast along the rows
    refine (val_main_v63_apply x11 (ix2 p q)).trans ((val_main_v62_apply x11 _).trans (congrArg x11 ?_))
    exact funext fun a => Fin.ext (by match a with | ⟨0, _⟩ => rfl)

end Cert.Sage
-- ==== Proof.RefValue.lean ====
/-
  The reference program, read one host operation at a time, computes the specification's `refOut`
  of its argument arrays (over the extended reals).

  The edge columns, the two row sums and the two edge counts are the specification's terms by
  unfolding. Every other stage is read at an index: a product of matrices as a finite sum, a broadcast
  as a read of its operand, the mean as a quotient, the relu as a maximum with the zero word.
-/
import proofs.«156402_j7773890806311_2_alg».proof.Proof.Gen.ReferenceIdeal.Read
import proofs.«156402_j7773890806311_2_alg».proof.Proof.Spec
import proofs.«156402_j7773890806311_2_alg».proof.Proof.RefTail
import Idealize.ShloMosaic.Lib.ValueIdx
import Idealize.ShloMosaic.PureOps.Ideal.Laws

noncomputable section

open scoped BigOperators

namespace Cert.Sage

open Cert.ReferenceIdeal Cert.ReferenceIdeal.Read Idealize.ShloMosaic Idealize.ShloMosaic.ValueIdx

/-! ## The edge rows -/

/-- The reference's destination column is the specification's. -/
theorem ref_dst (x1 : (⟨S2x800000, .i32⟩ : BufTy).Contents (Elt Ideal)) : val_main_v12 (F := Ideal) x1 = dstRows x1 := rfl

theorem ref_dst16 (x1 : (⟨S2x800000, .i32⟩ : BufTy).Contents (Elt Ideal)) : val_main_v16 (F := Ideal) x1 = dstRows x1 := rfl

theorem ref_dst38 (x1 : (⟨S2x800000, .i32⟩ : BufTy).Contents (Elt Ideal)) : val_main_v38 (F := Ideal) x1 = dstRows x1 := rfl

theorem ref_dst42 (x1 : (⟨S2x800000, .i32⟩ : BufTy).Contents (Elt Ideal)) : val_main_v42 (F := Ideal) x1 = dstRows x1 := rfl

/-- The reference's source column (negative row numbers wrapped once) is the specification's. -/
theorem ref_src (x1 : (⟨S2x800000, .i32⟩ : BufTy).Contents (Elt Ideal)) : val_main_v9 (F := Ideal) x1 = srcRows x1 := rfl

theorem ref_src35 (x1 : (⟨S2x800000, .i32⟩ : BufTy).Contents (Elt Ideal)) : val_main_v35 (F := Ideal) x1 = srcRows x1 := rfl

/-! ## The row sums and the edge count -/

/-- The side condition of the row scatter at 64 columns. -/
theorem wfS64 : ScatterDims.WF ⟨2, ![50000, 64]⟩ ⟨2, ![800000, 1]⟩ ⟨2, ![800000, 64]⟩ [1] [0] [0] 1 := by decide

/-- The side condition of the row gather at 64 columns. -/
theorem wfG64 : GatherDims.WF ⟨2, ![50000, 64]⟩ ⟨2, ![800000, 1]⟩ ⟨2, ![800000, 64]⟩ [1] [0] [] [0] [] 1 ![1, 64] := by decide

/-- First layer: the scattered sum of the gathered input rows is `agg X`. -/
theorem ref_agg1 (x0 : (⟨S50000x64, .f32⟩ : BufTy).Contents (Elt Ideal)) (x1 : (⟨S2x800000, .i32⟩ : BufTy).Contents (Elt Ideal)) :
    val_main_v13 (F := Ideal) x0 x1 = agg 64 wfS64 wfG64 (dstRows x1) (srcRows x1) x0 := rfl

/-- First layer: the scattered sum of ones is the edge count. -/
theorem ref_cnt1 (x1 : (⟨S2x800000, .i32⟩ : BufTy).Contents (Elt Ideal)) :
    val_main_v17 (F := Ideal) x1 = cnt (dstRows x1) := rfl

/-- Second layer: the edge count again. -/
theorem ref_cnt2 (x1 : (⟨S2x800000, .i32⟩ : BufTy).Contents (Elt Ideal)) :
    val_main_v43 (F := Ideal) x1 = cnt (dstRows x1) := rfl

/-- Second layer: the scattered sum of the gathered hidden rows is `agg` of the first layer's result. -/
theorem ref_agg2 (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 : (⟨S64, .f32⟩ : BufTy).Contents (Elt Ideal)) :
    val_main_v39 (F := Ideal) x0 x1 x2 x3 x4
      = agg 64 wfS64 wfG64 (dstRows x1) (srcRows x1) (val_main_v29 (F := Ideal) x0 x1 x2 x3 x4) := rfl

/-! ## Index maps of the first layer -/

theorem lidx23_eq (r : Fin 50000) (n k : Fin 64) :
    lidx_main_v23 (ix2 r n : S50000x64.Idx) k = (ix2 r k : S50000x64.Idx) :=
  funext fun a => Fin.ext (by match a with | ⟨0, _⟩ => rfl | ⟨1, _⟩ => rfl)

theorem ridx23_eq (r : Fin 50000) (n k : Fin 64) :
    ridx_main_v23 (ix2 r n : S50000x64.Idx) k = (ix2 k n : S64x64.Idx) :=
  funext fun a => Fin.ext (by match a with | ⟨0, _⟩ => rfl | ⟨1, _⟩ => rfl)

theorem lidx27_eq (r : Fin 50000) (n k : Fin 64) :
    lidx_main_v27 (ix2 r n : S50000x64.Idx) k = (ix2 r k : S50000x64.Idx) :=
  funext fun a => Fin.ext (by match a with | ⟨0, _⟩ => rfl | ⟨1, _⟩ => rfl)

theorem ridx27_eq (r : Fin 50000) (n k : Fin 64) :
    ridx_main_v27 (ix2 r n : S50000x64.Idx) k = (ix2 k n : S64x64.Idx) :=
  funext fun a => Fin.ext (by match a with | ⟨0, _⟩ => rfl | ⟨1, _⟩ => rfl)

/-- The divisor's column, broadcast along the row, is read at the row number. -/
theorem idx20_21_eq (a : Fin 50000) (b : Fin 64) :
    idx_main_v20 (idx_main_v21 (ix2 a b : S50000x64.Idx)) = (ix1 a : S50000.Idx) :=
  funext fun d => Fin.ext (by match d with | ⟨0, _⟩ => rfl)

/-- The bias row, broadcast along the column, is read at the column number. -/
theorem idx24_25_eq (r : Fin 50000) (n : Fin 64) :
    idx_main_v24 (idx_main_v25 (ix2 r n : S50000x64.Idx)) = (ix1 n : S64.Idx) :=
  funext fun d => Fin.ext (by match d with | ⟨0, _⟩ => rfl)

/-! ## The first layer -/

/-- The mean of the first layer at an entry: the row sum over the clamped edge count. -/
theorem ref_mean1 (x0 : (⟨S50000x64, .f32⟩ : BufTy).Contents (Elt Ideal)) (x1 : (⟨S2x800000, .i32⟩ : BufTy).Contents (Elt Ideal))
    (r : Fin 50000) (k : Fin 64) :
    val_main_v22 (F := Ideal) x0 x1 (ix2 r k : S50000x64.Idx)
      = Ideal.div (agg 64 wfS64 wfG64 (dstRows x1) (srcRows x1) x0 (ix2 r k)) (clampCnt (dstRows x1) (ix1 r)) := by
  rw [val_main_v22_apply, val_main_v21_apply, val_main_v20_apply, idx20_21_eq, val_main_v19_apply, val_main_v18_apply,
    val_main_cst_3_apply, ref_agg1, ref_cnt1]
  rfl

/-- The reference's first hidden layer is `hidR` of the input, its row sums and the clamped edge count. -/
theorem ref_hid (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 : (⟨S64, .f32⟩ : BufTy).Contents (Elt Ideal)) :
    val_main_v29 (F := Ideal) x0 x1 x2 x3 x4
      = hidR x0 (agg 64 wfS64 wfG64 (dstRows x1) (srcRows x1) x0) (clampCnt (dstRows x1)) x2 x3 x4 := by
  funext i
  obtain ⟨r, n, rfl⟩ : ∃ (r : Fin 50000) (n : Fin 64), i = ix2 r n := ⟨i 0, i 1, eq_ix2 i⟩
  rw [val_main_v29_apply, val_main_v28_apply, val_main_v26_apply, val_main_v23_apply, val_main_v27_apply,
    val_main_v25_apply, val_main_v24_apply, val_main_call0_v0_apply, val_main_call0_cst_apply, idx24_25_eq]
  have hL : ∀ k : Fin 64, val_main_v22 (F := Ideal) x0 x1 (lidx_main_v23 (ix2 r n) k) * x2 (ridx_main_v23 (ix2 r n) k)
      = Ideal.div (agg 64 wfS64 wfG64 (dstRows x1) (srcRows x1) x0 (ix2 r k))
          (clampCnt (dstRows x1) (ix1 r)) * x2 (ix2 k n) := fun k => by
    rw [lidx23_eq, ridx23_eq, ref_mean1]
  have hR : ∀ k : Fin 64, x0 (lidx_main_v27 (ix2 r n) k) * x3 (ridx_main_v27 (ix2 r n) k)
      = x0 (ix2 r k) * x3 (ix2 k n) := fun k => by
    rw [lidx27_eq, ridx27_eq]
  rw [Finset.sum_congr rfl (fun k _ => hL k), Finset.sum_congr rfl (fun k _ => hR k)]
  rfl

/-! ## Index maps of the second layer -/

theorem lidx49_eq (r : Fin 50000) (n : Fin 32) (k : Fin 64) :
    lidx_main_v49 (ix2 r n : S50000x32.Idx) k = (ix2 r k : S50000x64.Idx) :=
  funext fun a => Fin.ext (by match a with | ⟨0, _⟩ => rfl | ⟨1, _⟩ => rfl)

theorem ridx49_eq (r : Fin 50000) (n : Fin 32) (k : Fin 64) :
    ridx_main_v49 (ix2 r n : S50000x32.Idx) k = (ix2 k n : S64x32.Idx) :=
  funext fun a => Fin.ext (by match a with | ⟨0, _⟩ => rfl | ⟨1, _⟩ => rfl)

theorem lidx53_eq (r : Fin 50000) (n : Fin 32) (k : Fin 64) :
    lidx_main_v53 (ix2 r n : S50000x32.Idx) k = (ix2 r k : S50000x64.Idx) :=
  funext fun a => Fin.ext (by match a with | ⟨0, _⟩ => rfl | ⟨1, _⟩ => rfl)

theorem ridx53_eq (r : Fin 50000) (n : Fin 32) (k : Fin 64) :
    ridx_main_v53 (ix2 r n : S50000x32.Idx) k = (ix2 k n : S64x32.Idx) :=
  funext fun a => Fin.ext (by match a with | ⟨0, _⟩ => rfl | ⟨1, _⟩ => rfl)

/-- The divisor's column, broadcast along the row, is read at the row number. -/
theorem idx46_47_eq (a : Fin 50000) (b : Fin 64) :
    idx_main_v46 (idx_main_v47 (ix2 a b : S50000x64.Idx)) = (ix1 a : S50000.Idx) :=
  funext fun d => Fin.ext (by match d with | ⟨0, _⟩ => rfl)

/-- The bias row, broadcast along the column, is read at the column number. -/
theorem idx50_51_eq (r : Fin 50000) (n : Fin 32) :
    idx_main_v50 (idx_main_v51 (ix2 r n : S50000x32.Idx)) = (ix1 n : S32.Idx) :=
  funext fun d => Fin.ext (by match d with | ⟨0, _⟩ => rfl)

/-! ## The second layer -/

/-- The mean of the second layer at an entry: the row sum of the hidden rows over the clamped edge count. -/
theorem ref_mean2 (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 : (⟨S64, .f32⟩ : BufTy).Contents (Elt Ideal))
    (r : Fin 50000) (k : Fin 64) :
    val_main_v48 (F := Ideal) x0 x1 x2 x3 x4 (ix2 r k : S50000x64.Idx)
      = Ideal.div (agg 64 wfS64 wfG64 (dstRows x1) (srcRows x1) (val_main_v29 (F := Ideal) x0 x1 x2 x3 x4) (ix2 r k))
          (clampCnt (dstRows x1) (ix1 r)) := by
  rw [val_main_v48_apply, val_main_v47_apply, val_main_v46_apply, idx46_47_eq, val_main_v45_apply, val_main_v44_apply,
    val_main_cst_9_apply, ref_agg2, ref_cnt2]
  rfl

/-- The reference's second hidden layer at an entry, in the shape `headR` gives it. -/
theorem ref_h2 (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 : (⟨S64, .f32⟩ : BufTy).Contents (Elt Ideal))
    (x5 x6 : (⟨S64x32, .f32⟩ : BufTy).Contents (Elt Ideal)) (x7 : (⟨S32, .f32⟩ : BufTy).Contents (Elt Ideal))
    (r : Fin 50000) (n : Fin 32) :
    val_main_v55 (F := Ideal) x0 x1 x2 x3 x4 x5 x6 x7 (ix2 r n : S50000x32.Idx)
      = max (((∑ k : Fin 64,
                Ideal.div (agg 64 wfS64 wfG64 (dstRows x1) (srcRows x1)
                    (hidR x0 (agg 64 wfS64 wfG64 (dstRows x1) (srcRows x1) x0) (clampCnt (dstRows x1)) x2 x3 x4) (ix2 r k))
                  (clampCnt (dstRows x1) (ix1 r)) * x5 (ix2 k n)) + x7 (ix1 n))
          + ∑ k : Fin 64,
              hidR x0 (agg 64 wfS64 wfG64 (dstRows x1) (srcRows x1) x0) (clampCnt (dstRows x1)) x2 x3 x4 (ix2 r k)
                * x6 (ix2 k n)) Z := by
  rw [val_main_v55_apply, val_main_v54_apply, val_main_v52_apply, val_main_v49_apply, val_main_v53_apply,
    val_main_v51_apply, val_main_v50_apply, val_main_call1_v0_apply, val_main_call1_cst_apply, idx50_51_eq]
  have hL : ∀ k : Fin 64, val_main_v48 (F := Ideal) x0 x1 x2 x3 x4 (lidx_main_v49 (ix2 r n) k) * x5 (ridx_main_v49 (ix2 r n) k)
      = Ideal.div (agg 64 wfS64 wfG64 (dstRows x1) (srcRows x1) (val_main_v29 (F := Ideal) x0 x1 x2 x3 x4) (ix2 r k))
          (clampCnt (dstRows x1) (ix1 r)) * x5 (ix2 k n) := fun k => by
    rw [lidx49_eq, ridx49_eq, ref_mean2]
  have hR : ∀ k : Fin 64, val_main_v29 (F := Ideal) x0 x1 x2 x3 x4 (lidx_main_v53 (ix2 r n) k) * x6 (ridx_main_v53 (ix2 r n) k)
      = val_main_v29 (F := Ideal) x0 x1 x2 x3 x4 (ix2 r k) * x6 (ix2 k n) := fun k => by
    rw [lidx53_eq, ridx53_eq]
  rw [Finset.sum_congr rfl (fun k _ => hL k), Finset.sum_congr rfl (fun k _ => hR k), ref_hid]
  rfl

/-! ## The whole reference -/

/-- The reference's result is the specification's `refOut` of the argument arrays. -/
theorem ref_value (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 : (⟨S64, .f32⟩ : BufTy).Contents (Elt Ideal))
    (x5 x6 : (⟨S64x32, .f32⟩ : BufTy).Contents (Elt Ideal)) (x7 : (⟨S32, .f32⟩ : BufTy).Contents (Elt Ideal))
    (x8 : (⟨S32x16, .f32⟩ : BufTy).Contents (Elt Ideal)) (x9 : (⟨S16, .f32⟩ : BufTy).Contents (Elt Ideal))
    (x10 : (⟨S16x2, .f32⟩ : BufTy).Contents (Elt Ideal)) (x11 : (⟨S2, .f32⟩ : BufTy).Contents (Elt Ideal)) :
    val_main_v64 (F := Ideal) x0 x1 x2 x3 x4 x5 x6 x7 x8 x9 x10 x11
      = refOut (dstRows x1) (srcRows x1) x0 x2 x3 x4 x5 x6 x7 x8 x9 x10 x11 :=
  (ref_tail x0 x1 x2 x3 x4 x5 x6 x7 x8 x9 x10 x11 _ (ref_h2 x0 x1 x2 x3 x4 x5 x6 x7)).trans rfl

end Cert.Sage

end
-- ==== Proof.IsReal.lean ====
/-
  An extended real that is a real number, that is, neither of the two infinities.  Under the
  precondition every entry of every float argument is one, and sums, products and maxima of such
  numbers are again real: this is what lets a factor move across a sum in the second layer's mean.
-/
import Idealize.ShloMosaic.PureOps.Ideal

namespace Cert.Sage

/-- `x` is (the coercion of) a real number. -/
def IsReal (x : EReal) : Prop := ∃ r : ℝ, x = (r : EReal)

end Cert.Sage
-- ==== Proof.FiniteInputs.lean ====
/-
  From the precondition "every float input is finite" to "every entry of these argument arrays is a
  real number".  The precondition is the conjunction, over the float arguments, of
  `all (|a| < +∞)`: an all-reduce by `and` of the elementwise comparison of `max x (-x)` with the
  extended real the word `0x7F800000` denotes, which is `⊤`.  An all-reduce by `and` that is 1 had a
  1 at every index; an extended real `x` with `max x (-x) < ⊤` is neither `⊤` nor `⊥` (at both
  `max x (-x) = ⊤`), hence the coercion of a real.
-/
import proofs.«156402_j7773890806311_2_alg».proof.Pre_finite_inputs
import proofs.«156402_j7773890806311_2_alg».proof.Proof.IsReal
import Idealize.ShloMosaic.Lib.ReduceAll
import Idealize.ShloMosaic.Lib.ValueIdx
import Idealize.ShloMosaic.PureOps.Ideal.Laws

namespace Cert.Sage

open Idealize.ShloMosaic
open Cert.Pre_finite_inputs

/-- The rank-0 shape has exactly one index. -/
private instance subsingleton_scalar_idx : Subsingleton S_.Idx := ⟨fun a b => funext fun d => d.elim0⟩

/-- An extended real whose absolute value `max x (-x)` lies below `⊤` is a real number. -/
private theorem isReal_of_abs_lt_top (x : EReal) (h : max x (-x) < ⊤) : IsReal x := by
  induction x using EReal.rec with
  | bot => simp at h
  | coe r => exact ⟨r, rfl⟩
  | top => simp at h

/-- The ordered "less than" comparison on extended reals, read back: the bit is 1 only if `x < y`. -/
private theorem lt_of_cmp_olt {x y : EReal} (h : Ideal.cmp .olt x y = 1#1) : x < y := by
  by_contra hn
  simp [Ideal.cmp, hn] at h

/-- The word `0x7F800000` denotes `+∞`. -/
private theorem ofBits_inf : Ideal.ofBits .f32 0x7F800000#32 = (⊤ : EReal) := by
  simp [Ideal.ofBits, Ideal.ieee]

/-- `all (|a| < +∞) = 1` for an array `a` of any shape: every entry of `a` is a real number. -/
private theorem all_real {s : Shape} {axes : List (Fin s.rank)} (a : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf a) (broadcastInDim s ![] hb (constant S_ .f32 0x7F800000#32)))
          (constantI S_ 1 1#1) hr hu j = 1#1) (i : s.Idx) : IsReal (a i) := by
  have hi := Host.reduce_andi_all _ _ hr hu j e i
  have hi' : Ideal.cmp .olt (max (a i) (-(a i))) (Ideal.ofBits .f32 0x7F800000#32) = 1#1 := hi
  have hlt := lt_of_cmp_olt hi'
  rw [ofBits_inf] at hlt
  exact isReal_of_abs_lt_top _ hlt

theorem real_of_finite_inputs [Cert.Pre_finite_inputs.Facts]
    (a0 : FVec Ideal Cert.Pre_finite_inputs.S50000x64 .f32) (a1 : IVec Cert.Pre_finite_inputs.S2x800000 32)
    (a2 a3 : FVec Ideal Cert.Pre_finite_inputs.S64x64 .f32) (a4 : FVec Ideal Cert.Pre_finite_inputs.S64 .f32)
    (a5 a6 : FVec Ideal Cert.Pre_finite_inputs.S64x32 .f32) (a7 : FVec Ideal Cert.Pre_finite_inputs.S32 .f32)
    (a8 : FVec Ideal Cert.Pre_finite_inputs.S32x16 .f32) (a9 : FVec Ideal Cert.Pre_finite_inputs.S16 .f32)
    (a10 : FVec Ideal Cert.Pre_finite_inputs.S16x2 .f32) (a11 : FVec Ideal Cert.Pre_finite_inputs.S2 .f32)
    (h : Cert.Pre_finite_inputs.fn (F := Ideal) a0 a1 a2 a3 a4 a5 a6 a7 a8 a9 a10 a11 = fun _ => 1#1) :
    (∀ i, IsReal (a0 i)) ∧ (∀ i, IsReal (a2 i)) ∧ (∀ i, IsReal (a3 i)) ∧ (∀ i, IsReal (a4 i)) ∧ (∀ i, IsReal (a5 i)) := by
  have h0 := congrFun h ValueIdx.ix0
  dsimp only [fn, fn_part1, fn_part2, fn_part3, andi] at h0
  simp only [IntOp.andi_eq_one] at h0
  obtain ⟨⟨⟨⟨⟨⟨⟨⟨⟨⟨e0, e2⟩, e3⟩, e4⟩, e5⟩, -⟩, -⟩, -⟩, -⟩, -⟩, -⟩ := h0
  exact ⟨all_real a0 _ _ _ _ e0, all_real a2 _ _ _ _ e2, all_real a3 _ _ _ _ e3, all_real a4 _ _ _ _ e4,
    all_real a5 _ _ _ _ e5⟩

end Cert.Sage
-- ==== Proof.RealAlgebra.lean ====
/-
  Algebra on extended reals that are real numbers.

  In the extended reals multiplication does not distribute over addition at the two infinities,
  so the laws that move a factor across a finite sum are stated for entries that are real: zero,
  one, sums, products, maxima and reciprocals of reals are real, a product with the reciprocal of
  a divisor that is not zero is the quotient, and the mean of projected rows is the projection of
  the mean row.
-/
import proofs.«156402_j7773890806311_2_alg».proof.Proof.IsReal
import Idealize.ShloMosaic.PureOps.Ideal
import Idealize.ShloMosaic.PureOps.Ideal.Laws

open Idealize.ShloMosaic
open scoped BigOperators

namespace Cert.Sage

/-! ## Closure of the real entries -/

/-- Zero is real. -/
theorem isReal_zero : IsReal 0 := ⟨0, EReal.coe_zero.symm⟩

/-- One is real. -/
theorem isReal_one : IsReal 1 := ⟨1, EReal.coe_one.symm⟩

/-- The coercion of a real is real. -/
theorem isReal_coe (r : ℝ) : IsReal (r : EReal) := ⟨r, rfl⟩

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The larger of two reals is one of them, so it is real. -/
theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem isReal_sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add
      (ih (fun i hi => h i (Finset.mem_insert_of_mem hi)))

/-- The reciprocal is always real: of an infinity it is zero, of a real it is the real reciprocal. -/
theorem isReal_inv (c : EReal) : IsReal c⁻¹ := by
  induction c using EReal.rec with
  | bot => rw [EReal.inv_bot]; exact isReal_zero
  | coe r => exact ⟨r⁻¹, (EReal.coe_inv r).symm⟩
  | top => rw [EReal.inv_top]; exact isReal_zero

/-- One over a divisor that is not zero is the reciprocal, hence real. -/
theorem isReal_div_one {c : EReal} (hc : c ≠ 0) : IsReal (Ideal.div 1 c) := by
  unfold Ideal.div
  rw [if_neg hc, one_mul]
  exact isReal_inv c

/-! ## Constants -/

/-- The single precision pattern `0x3F800000` denotes one. -/
theorem ofBits_one : Ideal.ofBits .f32 0x3F800000#32 = 1 := by
  rw [show (1 : EReal) = ((1 : ℝ) : EReal) by norm_cast]
  simp [Ideal.ofBits, Ideal.ieee, -EReal.coe_mul]; norm_num

/-- A maximum with one is at least one, so it is not zero. -/
theorem max_one_ne_zero (x : EReal) : max x 1 ≠ 0 :=
  ne_of_gt (lt_of_lt_of_le zero_lt_one (le_max_right x 1))

/-! ## Moving a factor across a quotient and across a finite sum -/

/-- For a divisor that is not zero, both sides are the product with the reciprocal. -/
theorem mul_div_one (x c : EReal) (hc : c ≠ 0) : x * Ideal.div 1 c = Ideal.div x c := by
  unfold Ideal.div
  rw [if_neg hc, if_neg hc, one_mul]

/-- the mean of projected rows is the projection of the mean row -/
theorem mean_proj_comm {ι κ : Type} [Fintype κ] (E : Finset ι) (a : ι → κ → EReal) (w : κ → EReal)
    (c : EReal) (hc : c ≠ 0) (ha : ∀ e k, IsReal (a e k)) (hw : ∀ k, IsReal (w k)) :
    (∑ e ∈ E, ∑ k, a e k * w k) * Ideal.div 1 c = ∑ k, Ideal.div (∑ e ∈ E, a e k) c * w k := by
  -- every entry, every weight and the reciprocal of the divisor is the coercion of a real
  obtain ⟨d, hd⟩ := isReal_inv c
  choose A hA using ha
  choose W hW using hw
  obtain rfl : a = fun e k => (A e k : EReal) := funext fun e => funext fun k => hA e k
  obtain rfl : w = fun k => (W k : EReal) := funext hW
  unfold Ideal.div
  simp only [if_neg hc, one_mul, hd]
  -- on real entries a factor moves across a finite sum: push the coercions outward, finish in ℝ
  simp only [← EReal.coe_mul, ← coe_sum]
  congr 1
  rw [Finset.sum_comm, Finset.sum_mul]
  refine Finset.sum_congr rfl fun k _ => ?_
  rw [← Finset.sum_mul]
  ring

/-- the same with the zero initial values the programs carry, spelled as the zero word -/
theorem mean_proj_comm_z {ι κ : Type} [Fintype κ] (E : Finset ι) (a : ι → κ → EReal)
    (w : κ → EReal) (c : EReal) (hc : c ≠ 0) (ha : ∀ e k, IsReal (a e k)) (hw : ∀ k, IsReal (w k)) :
    (Ideal.ofBits .f32 0x00000000#32
        + ∑ e ∈ E, (Ideal.ofBits .f32 0x00000000#32 + ∑ k, a e k * w k)) * Ideal.div 1 c
      = Ideal.ofBits .f32 0x00000000#32
        + ∑ k, Ideal.div (Ideal.ofBits .f32 0x00000000#32 + ∑ e ∈ E, a e k) c * w k := by
  simp only [Ideal.ofBits_zero_f32, zero_add]
  exact mean_proj_comm E a w c hc ha hw

end Cert.Sage
-- ==== Proof.Bridge.lean ====
/-
  The kernel-shaped and the reference-shaped whole-array functions agree on real inputs.

  Read at a node `i` and a column `k`, the aggregate of an array `x` is `0 + ∑ x[row e, k]` over the
  edges `e` whose destination is `i`, where `row e` is the source row of the edge.  The divisor
  `c i = max (cnt i) 1` is never zero, so multiplying by `1 / c i` is dividing by `c i`; this settles the
  first layer for every aggregate, real or not, up to the order of the two last summands.  The hidden
  array then has real entries, and on real entries a factor moves across a finite sum: the mean over
  the incoming edges of the projected rows is the projection of the mean row, which settles the second
  layer.  The classifier is the same function on both sides.
-/
import proofs.«156402_j7773890806311_2_alg».proof.Proof.Spec
import proofs.«156402_j7773890806311_2_alg».proof.Proof.RealAlgebra
import Idealize.ShloMosaic.Lib.ValueIdx

noncomputable section

open scoped BigOperators

namespace Cert.Sage

open Idealize.ShloMosaic Idealize.ShloMosaic.ValueIdx

/-! ## The two constant words -/

/-- The zero word denotes zero. -/
theorem Z_eq : Z = 0 := Ideal.ofBits_zero_f32

/-- The word of one denotes one. -/
theorem One_eq : One = 1 := ofBits_one

/-- The zero word is real. -/
theorem isReal_Z : IsReal Z := by rw [Z_eq]; exact isReal_zero

/-- A product with the reciprocal of a divisor that is not zero is the quotient. -/
theorem mul_div_One (x c : EReal) (hc : c ≠ 0) : x * Ideal.div One c = Ideal.div x c := by
  rw [One_eq]; exact mul_div_one x c hc

/-- A real divided by a divisor that is not zero is real. -/
theorem isReal_div {x c : EReal} (hx : IsReal x) (hc : c ≠ 0) : IsReal (Ideal.div x c) := by
  rw [← mul_div_one x c hc]; exact hx.mul (isReal_div_one hc)

/-! ## The aggregate read at an index -/

/-- The edges into node `i`. -/
def inEdges (dst : EdgeRows) (i : Fin 50000) : Finset (Fin 800000) :=
  Finset.univ.filter (fun e : Fin 800000 => (dst (ix2 e (0 : Fin 1))).toInt = (i.val : Int))

/-- The source row of an edge, read signed and clamped into the rows of the array. -/
def srcRow (src : EdgeRows) (e : Fin 800000) : Fin 50000 :=
  ⟨min (src (ix2 e (0 : Fin 1))).toInt.toNat (50000 - 1), by omega⟩

/-- Entry `(i, k)` of the aggregate is `0 + ∑ x[row e, k]` over the edges `e` into `i`. -/
theorem agg_apply (C : Nat) (wfS : ScatterDims.WF ⟨2, ![50000, C]⟩ ⟨2, ![800000, 1]⟩ ⟨2, ![800000, C]⟩ [1] [0] [0] 1)
    (wfG : GatherDims.WF ⟨2, ![50000, C]⟩ ⟨2, ![800000, 1]⟩ ⟨2, ![800000, C]⟩ [1] [0] [] [0] [] 1 ![1, C])
    (dst src : EdgeRows) (x : A2 50000 C) (i : Fin 50000) (k : Fin C) :
    agg C wfS wfG dst src x (ix2 i k) = Z + ∑ e ∈ inEdges dst i, x (ix2 (srcRow src e) k) := by
  unfold agg
  rw [rowScatterAdd_apply]
  refine congrArg (fun t => Z + t) (Finset.sum_congr rfl (fun e _ => ?_))
  exact rowGather_apply (by norm_num) wfG x src e k

/-- The aggregate of an array with real entries has real entries. -/
theorem agg_isReal (C : Nat) (wfS : ScatterDims.WF ⟨2, ![50000, C]⟩ ⟨2, ![800000, 1]⟩ ⟨2, ![800000, C]⟩ [1] [0] [0] 1)
    (wfG : GatherDims.WF ⟨2, ![50000, C]⟩ ⟨2, ![800000, 1]⟩ ⟨2, ![800000, C]⟩ [1] [0] [] [0] [] 1 ![1, C])
    (dst src : EdgeRows) (x : A2 50000 C) (hx : ∀ j, IsReal (x j)) (j : (⟨2, ![50000, C]⟩ : Shape).Idx) :
    IsReal (agg C wfS wfG dst src x j) := by
  obtain ⟨i, k, rfl⟩ : ∃ i k, j = ix2 i k := ⟨_, _, eq_ix2 j⟩
  rw [agg_apply]
  exact isReal_Z.add (isReal_sum _ _ (fun e _ => hx _))

/-! ## The divisor -/

/-- The divisor of the mean is at least one, so it is not zero. -/
theorem clampCnt_ne_zero (dst : EdgeRows) (j : (⟨1, ![50000]⟩ : Shape).Idx) : clampCnt dst j ≠ 0 := by
  unfold clampCnt
  rw [One_eq]
  exact max_one_ne_zero _

/-- The reciprocal column at row `r` is one over the divisor of row `r`. -/
theorem invCol_apply (dst : EdgeRows) (r : Fin 50000) :
    invCol dst (ix2 r (0 : Fin 1)) = Ideal.div One (clampCnt dst (ix1 r)) := rfl

/-! ## The first layer -/

/-- For every aggregate `S`, multiplying by the reciprocal column and adding the bias last is dividing by
    the divisor and adding the bias before the second product. -/
theorem hidK_eq_hidR (dst : EdgeRows) (X S : A2 50000 64) (WL WR : A2 64 64) (B : A1 64) :
    hidK X S (invCol dst) WL WR B = hidR X S (clampCnt dst) WL WR B := by
  funext i
  have hterm : ∀ k : Fin 64, S (ix2 (i 0) k) * invCol dst (ix2 (i 0) (0 : Fin 1))
      = Ideal.div (S (ix2 (i 0) k)) (clampCnt dst (ix1 (i 0))) := fun k =>
    mul_div_One _ _ (clampCnt_ne_zero dst (ix1 (i 0)))
  unfold hidK hidR
  simp only [hterm]
  rw [add_right_comm]

/-- With real arguments and a divisor that is never zero the first layer has real entries. -/
theorem hidR_isReal (X S : A2 50000 64) (c : A1 50000) (WL WR : A2 64 64) (B : A1 64)
    (hX : ∀ i, IsReal (X i)) (hS : ∀ i, IsReal (S i)) (hc : ∀ j, c j ≠ 0)
    (hWL : ∀ i, IsReal (WL i)) (hWR : ∀ i, IsReal (WR i)) (hB : ∀ i, IsReal (B i))
    (i : (⟨2, ![50000, 64]⟩ : Shape).Idx) : IsReal (hidR X S c WL WR B i) := by
  unfold hidR
  exact IsReal.max
    (IsReal.add
      (IsReal.add (isReal_sum _ _ (fun k _ => (isReal_div (hS _) (hc _)).mul (hWL _))) (hB _))
      (isReal_sum _ _ (fun k _ => (hX _).mul (hWR _))))
    isReal_Z

/-! ## The second layer -/

/-- the mean of projected rows is the projection of the mean row, with the zero initial value of the
    sum over the edges -/
theorem mean_proj_comm_outer {ι κ : Type} [Fintype κ] (E : Finset ι) (a : ι → κ → EReal) (w : κ → EReal)
    (c : EReal) (hc : c ≠ 0) (ha : ∀ e k, IsReal (a e k)) (hw : ∀ k, IsReal (w k)) :
    (Z + ∑ e ∈ E, ∑ k, a e k * w k) * Ideal.div One c = ∑ k, Ideal.div (Z + ∑ e ∈ E, a e k) c * w k := by
  rw [One_eq, Z_eq]
  simp only [zero_add]
  exact mean_proj_comm E a w c hc ha hw

/-- Aggregating the projected hidden rows and multiplying by the reciprocal column is projecting the
    mean hidden row: the edge set and the source rows are the same on both sides. -/
theorem second_layer
    (wfS32 : ScatterDims.WF ⟨2, ![50000, 32]⟩ ⟨2, ![800000, 1]⟩ ⟨2, ![800000, 32]⟩ [1] [0] [0] 1)
    (wfG32 : GatherDims.WF ⟨2, ![50000, 32]⟩ ⟨2, ![800000, 1]⟩ ⟨2, ![800000, 32]⟩ [1] [0] [] [0] [] 1 ![1, 32])
    (wfS64 : ScatterDims.WF ⟨2, ![50000, 64]⟩ ⟨2, ![800000, 1]⟩ ⟨2, ![800000, 64]⟩ [1] [0] [0] 1)
    (wfG64 : GatherDims.WF ⟨2, ![50000, 64]⟩ ⟨2, ![800000, 1]⟩ ⟨2, ![800000, 64]⟩ [1] [0] [] [0] [] 1 ![1, 64])
    (dst src : EdgeRows) (H : A2 50000 64) (W : A2 64 32)
    (hH : ∀ i, IsReal (H i)) (hW : ∀ i, IsReal (W i)) (r : Fin 50000) (n : Fin 32) :
    agg 32 wfS32 wfG32 dst src (projK H W) (ix2 r n) * invCol dst (ix2 r (0 : Fin 1))
      = ∑ k : Fin 64, Ideal.div (agg 64 wfS64 wfG64 dst src H (ix2 r k)) (clampCnt dst (ix1 r)) * W (ix2 k n) := by
  rw [agg_apply, invCol_apply]
  simp only [agg_apply]
  exact mean_proj_comm_outer (inEdges dst r) (fun e k => H (ix2 (srcRow src e) k)) (fun k => W (ix2 k n))
    (clampCnt dst (ix1 r)) (clampCnt_ne_zero dst (ix1 r)) (fun e k => hH _) (fun k => hW _)

/-- Second layer and classifier: on a hidden array with real entries and a real projection the two
    orders agree. -/
theorem headK_eq_headR
    (wfS32 : ScatterDims.WF ⟨2, ![50000, 32]⟩ ⟨2, ![800000, 1]⟩ ⟨2, ![800000, 32]⟩ [1] [0] [0] 1)
    (wfG32 : GatherDims.WF ⟨2, ![50000, 32]⟩ ⟨2, ![800000, 1]⟩ ⟨2, ![800000, 32]⟩ [1] [0] [] [0] [] 1 ![1, 32])
    (wfS64 : ScatterDims.WF ⟨2, ![50000, 64]⟩ ⟨2, ![800000, 1]⟩ ⟨2, ![800000, 64]⟩ [1] [0] [0] 1)
    (wfG64 : GatherDims.WF ⟨2, ![50000, 64]⟩ ⟨2, ![800000, 1]⟩ ⟨2, ![800000, 64]⟩ [1] [0] [] [0] [] 1 ![1, 64])
    (dst src : EdgeRows) (H : A2 50000 64) (W2L W2R : A2 64 32) (B2 : A1 32)
    (WC1 : A2 32 16) (BC1 : A1 16) (WC2 : A2 16 2) (BC2 : A1 2)
    (hH : ∀ i, IsReal (H i)) (hW2L : ∀ i, IsReal (W2L i)) :
    headK H (agg 32 wfS32 wfG32 dst src (projK H W2L)) (invCol dst) W2R B2 WC1 BC1 WC2 BC2
      = headR H (agg 64 wfS64 wfG64 dst src H) (clampCnt dst) W2L W2R B2 WC1 BC1 WC2 BC2 := by
  unfold headK headR
  refine congrArg (fun h => tail h WC1 BC1 WC2 BC2) ?_
  funext r n
  rw [second_layer wfS32 wfG32 wfS64 wfG64 dst src H W2L hH hW2L r n, add_right_comm]

/-! ## The two programs -/

/-- On real node features and real first-layer weights, bias and second-layer left weights, the
    kernel-shaped and the reference-shaped functions are the same array. -/
theorem kerOut_eq_refOut (dst src : EdgeRows) (X : A2 50000 64) (W1L W1R : A2 64 64) (B1 : A1 64)
    (W2L W2R : A2 64 32) (B2 : A1 32) (WC1 : A2 32 16) (BC1 : A1 16) (WC2 : A2 16 2) (BC2 : A1 2)
    (hX : ∀ i, IsReal (X i)) (hW1L : ∀ i, IsReal (W1L i)) (hW1R : ∀ i, IsReal (W1R i))
    (hB1 : ∀ i, IsReal (B1 i)) (hW2L : ∀ i, IsReal (W2L i)) :
    kerOut dst src X W1L W1R B1 W2L W2R B2 WC1 BC1 WC2 BC2
      = refOut dst src X W1L W1R B1 W2L W2R B2 WC1 BC1 WC2 BC2 := by
  unfold kerOut refOut
  rw [hidK_eq_hidR]
  exact headK_eq_headR _ _ _ _ dst src _ W2L W2R B2 WC1 BC1 WC2 BC2
    (hidR_isReal X _ (clampCnt dst) W1L W1R B1 hX (agg_isReal 64 _ _ dst src X hX)
      (clampCnt_ne_zero dst) hW1L hW1R hB1)
    hW2L

end Cert.Sage

end
-- ==== Proof.lean ====
/-
  The kernel and the reference compute the same two-layer mean-aggregation network with a two-layer
  classifier on top:
      H   = relu (mean_in(X) · W1L + b1 + X · W1R)
      H2  = relu (mean_in(H) · W2L + b2 + H · W2R)
      out = relu (H2 · WC1 + bc1) · WC2 + bc2,
  where `mean_in(x)` at a node is the sum of the rows of `x` at the sources of its incoming edges divided
  by the number of those edges, at least one.  The certificate says: each program runs and leaves its
  arguments unchanged, and on the extended reals, from arguments that agree and whose float entries are
  finite, both end with the same result array.

  The proof of the last claim has four parts.  (1) The kernel's run ends with its result array at a
  whole-array function of the arguments, written in the kernel's order of operations.  (2) The reference's
  result term is a whole-array function of the same arguments, written in the reference's order.
  (3) The precondition makes every entry of the node features, of the first layer's weights and bias and of
  the second layer's left weights a real number.  (4) On real entries the two functions are equal: a
  product with the reciprocal of a divisor that is not zero is the quotient, and a factor moves across a
  finite sum, so the mean of the projected rows is the projection of the mean row.
-/
import proofs.«156402_j7773890806311_2_alg».proof.Defs
import proofs.«156402_j7773890806311_2_alg».proof.Proof.Gen.Kernel
import proofs.«156402_j7773890806311_2_alg».proof.Proof.Gen.Kernel.Skeleton
import proofs.«156402_j7773890806311_2_alg».proof.Proof.Gen.Kernel.Launch
import proofs.«156402_j7773890806311_2_alg».proof.Proof.Gen.Kernel.Points
import proofs.«156402_j7773890806311_2_alg».proof.Proof.Gen.Kernel.Frame
import proofs.«156402_j7773890806311_2_alg».proof.Proof.Gen.KernelIdeal
import proofs.«156402_j7773890806311_2_alg».proof.Proof.Gen.KernelIdeal.Skeleton
import proofs.«156402_j7773890806311_2_alg».proof.Proof.Gen.KernelIdeal.Launch
import proofs.«156402_j7773890806311_2_alg».proof.Proof.Gen.KernelIdeal.Points
import proofs.«156402_j7773890806311_2_alg».proof.Proof.Gen.KernelIdeal.Frame
import proofs.«156402_j7773890806311_2_alg».proof.Proof.Gen.ReferenceIdeal
import proofs.«156402_j7773890806311_2_alg».proof.Proof.Gen.ReferenceIdeal.Run
import proofs.«156402_j7773890806311_2_alg».proof.Proof.Gen.ReferenceIdeal.Read
import proofs.«156402_j7773890806311_2_alg».proof.Proof.Gen.Pre_finite_inputs
import proofs.«156402_j7773890806311_2_alg».proof.Proof.KernelValue
import proofs.«156402_j7773890806311_2_alg».proof.Proof.RefValue
import proofs.«156402_j7773890806311_2_alg».proof.Proof.FiniteInputs
import proofs.«156402_j7773890806311_2_alg».proof.Proof.Bridge
import Idealize.ShloMosaic.Adequacy
import Idealize.ShloMosaic.Init

noncomputable section

namespace Cert.Proof

open Idealize.ShloMosaic Idealize.SL.Sem

/-! ## The frames -/

/-- The kernel as printed runs and leaves its arguments unchanged. -/
theorem frame_k : Cert.frame_Kernel := fun m ρ _ => Cert.Kernel.Gen.frame m ρ

/-- The kernel on the extended reals runs and leaves its arguments unchanged. -/
theorem frame_ki : Cert.frame_KernelIdeal := fun m ρ _ => Cert.KernelIdeal.Gen.frame m ρ

/-- The reference on the extended reals runs and leaves its arguments unchanged: its run with the result
    dropped. -/
theorem frame_ri : Cert.frame_ReferenceIdeal := fun m ρ _ =>
  (θ_run Cert.ReferenceIdeal.defs _ _).mono (fun _ h c => (h c).2)
    (Cert.ReferenceIdeal.Value.run (F := Ideal) m ρ)

/-- The kernel on the extended reals is the kernel's own text: no operation was rewritten. -/
theorem preserves : Cert.preserves_Kernel_KernelIdeal := trivial

/-! ## Equal results -/

/-- From arguments that agree and are finite, the kernel's result array and the reference's are the same
    array: the kernel's run ends at the kernel-shaped function of the arguments, the reference's at the
    reference-shaped one, and on real entries the two are equal. -/
theorem algebraic : Cert.algebraic_KernelIdeal_ReferenceIdeal := by
  intro m ρ m' ρ' hpre hagree
  refine ⟨_, Cert.KernelIdeal.Named.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  obtain ⟨rX, rW1L, rW1R, rB1, rW2L⟩ := Cert.Sage.real_of_finite_inputs _ _ _ _ _ _ _ _ _ _ _ _ (hpre c)
  rw [Cert.ReferenceIdeal.Read.val_main_v64_eq, Cert.Sage.ref_value, e0, e1, e2, e3, e4, e5, e6, e7, e8, e9, e10, e11]
  exact (Cert.Sage.kerOut_eq_refOut _ _ _ _ _ _ _ _ _ _ _ _ _ rX rW1L rW1R rB1 rW2L).symm

/-! ## The certificate -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
